-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S2x1024x1024 : Shape := ⟨3, ![2, 1024, 1024]⟩
abbrev S256x1024 : Shape := ⟨2, ![256, 1024]⟩
abbrev S1x1024x1024 : Shape := ⟨3, ![1, 1024, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .bf16⟩
  | .hbm, ⟨14, _⟩ => ⟨S2x1024x1024, .bf16⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S2x1024x1024, .bf16⟩
  | .local _ .vmem, ⟨16, _⟩ => ⟨S1024x1024, .f32⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_23 : BitVec 32 := 0#32
  let v38 : BitVec 1 := Scalar.cmpi .ne v37 c0_i32_23
  v38

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  packedbf16_S256x1024_S256x1024_0_0 : (Rect.unit (s := S256x1024) ![0, 0] S256x1024.size inb_S256x1024_S256x1024_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S2x1024x1024_S1x1024x1024_0_0_0 : ∀ a, (![0, 0, 0] : Fin 3 → Nat) a + S1x1024x1024.size a ≤ S2x1024x1024.size a
  inb_S2x1024x1024_S1x1024x1024_1_0_0 : ∀ a, (![1, 0, 0] : Fin 3 → Nat) a + S1x1024x1024.size a ≤ S2x1024x1024.size a
  dot_S256x1024_S1024x1024_S256x1024_1_1_0_0_n_n_wf : DotDims.WF S256x1024 S1024x1024 S256x1024 [1] [1] [0] [0] [] []
  dot_S256x1024_S256x1024_S1024x1024_0_0_1_1_n_n_wf : DotDims.WF S256x1024 S256x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .bf16 = 32 ∨ (Rect.block (s := S8192x1024) S256x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1024.size a ≤ S2x1024x1024.size a
  hwx0_8 : ∀ i : grid0.Coords, EltTy.bits .bf16 = 32 ∨ (Rect.block (s := S2x1024x1024) S1x1024x1024.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1024x1024.size a ≤ S2x1024x1024.size a
  hwx1_1 : ∀ i : grid1.Coords, EltTy.bits .bf16 = 32 ∨ (Rect.block (s := S2x1024x1024) S2x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v6_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S2x1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x8192 : Shape := ⟨2, ![1024, 8192]⟩
abbrev S8192x8192 : Shape := ⟨2, ![8192, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S_, .f32⟩
  | .hbm, ⟨24, _⟩ => ⟨S1024x8192, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KR0Conds.lean ====
/-
  Region 0 (the projection pass): its body's two conditionals in closed form over the 2 × 16 grid, where its windows
  are idle, and names for the staging memrefs the body is called with.
-/
import proofs.«116467_j79113297592362_2_alg».proof.Proof.Gen.Kernel.Launch
import proofs.«116467_j79113297592362_2_alg».proof.Proof.Gen.Kernel.Skeleton
import proofs.«116467_j79113297592362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, decided over the grid -/

/-- The first conditional: the step within the half is 0 (the accumulator is zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second conditional: the step within the half is 15 (the half's partial product is stored). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The staging memrefs at a point, the scratch, and the views contents are stated through -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1024 .bf16 := win0_8.stage (cfg0.slots t 8)
abbrev hs0_8 (t : Fin cfg0.N) : (ms0_8 t).IsWhole := hstage0_8 ((cfg0.slots t 8).cast nbuf0_8)
abbrev scM0_0 : Memref sig .tc .vmem S1024x1024 .f32 := Memref.whole cc0_scratch0
abbrev VS0_0 : View sig .tc .vmem S1024x1024 .f32 := scM0_0.view
abbrev VO0_7 : View sig .tc .vmem S256x1024 .bf16 := (Memref.whole cc0_stg7_0 : Memref sig .tc .vmem S256x1024 .bf16).view
abbrev VO0_8 : View sig .tc .vmem S1x1024x1024 .bf16 := (Memref.whole cc0_stg8_0 : Memref sig .tc .vmem S1x1024x1024 .bf16).view

end Cert.Kernel.Fr

end
-- ==== Proof.KR0RunA.lean ====
/-
  Region 0, the body run whole in case A of its conditionals.
-/
import proofs.«116467_j79113297592362_2_alg».proof.Proof.KR0Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A of its two conditionals (first step of a half: the accumulator is zeroed, then added to), on whole staging memrefs: the pieces each written buffer ends with, found by running it. -/
noncomputable def kernelRun0_A (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) :
    Σ' (L7 : List (View.Piece (Elt F) S256x1024 .bf16)), { LS0 : List (View.Piece (Elt F) S1024x1024 .f32) //
      ∀ (xi8 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__proj_kv_kernel i arg2 harg2 arg3 harg3 arg4 harg4 arg5 harg5 arg6 harg6 arg7 harg7 arg8 harg8 arg9 harg9 arg10 harg10 arg11 harg11) K } := by
  refine ⟨?_, ?_, fun xi8 E K => ?run⟩
  case run =>
    simp only [cc0__proj_kv_kernel_eq_skeleton]; unfold cc0__proj_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.Kernel.Fr

end
-- ==== Proof.KR0RunB.lean ====
/-
  Region 0, the body run whole in case B of its conditionals.
-/
import proofs.«116467_j79113297592362_2_alg».proof.Proof.KR0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B of its two conditionals (a middle step: the accumulator is added to), on whole staging memrefs: the pieces each written buffer ends with, found by running it. -/
noncomputable def kernelRun0_B (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) :
    Σ' (L7 : List (View.Piece (Elt F) S256x1024 .bf16)), { LS0 : List (View.Piece (Elt F) S1024x1024 .f32) //
      ∀ (xi8 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__proj_kv_kernel i arg2 harg2 arg3 harg3 arg4 harg4 arg5 harg5 arg6 harg6 arg7 harg7 arg8 harg8 arg9 harg9 arg10 harg10 arg11 harg11) K } := by
  refine ⟨?_, ?_, fun xi8 E K => ?run⟩
  case run =>
    simp only [cc0__proj_kv_kernel_eq_skeleton]; unfold cc0__proj_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.Kernel.Fr

end
-- ==== Proof.KR0RunC.lean ====
/-
  Region 0, the body run whole in case C of its conditionals.
-/
import proofs.«116467_j79113297592362_2_alg».proof.Proof.KR0RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C of its two conditionals (last step of a half: the accumulator is added to, scaled and stored as the half's partial product), on whole staging memrefs: the pieces each written buffer ends with, found by running it. -/
noncomputable def kernelRun0_C (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) :
    Σ' (L7 : List (View.Piece (Elt F) S256x1024 .bf16)) (L8 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__proj_kv_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__proj_kv_kernel_eq_skeleton]; unfold cc0__proj_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.Kernel.Fr

end
-- ==== Proof.KR0Pieces.lean ====
/-
  Region 0: what the found pieces of each case read back as, through the body's named arithmetic — the projected queries
  of the row block; the accumulator zeroed (or as the point before left it) plus the block's product; at the last step of
  a half that accumulator scaled.
-/
import proofs.«116467_j79113297592362_2_alg».proof.Proof.KR0RunC
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-! ### Case A -/

theorem cover0_A_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) (y : S256x1024.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S256x1024.size (by sl_kernel_rfl) y

/-- What case A leaves in the projected-queries buffer: the found pieces read back. -/
def out0_A_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) : Vec F S256x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

theorem scover0_A_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.1 S1024x1024.size (by sl_kernel_rfl) y

/-- What case A leaves in the accumulator: the found pieces read back. -/
def sout0_A_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

/-- It is the projection of the row block. -/
theorem out0_A_7_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) : out0_A_7 c i arg2 harg2 arg3 harg3 arg4 harg4 arg5 harg5 arg6 harg6 arg7 harg7 arg8 harg8 arg9 harg9 arg10 harg10 arg11 harg11 hc0 hc1 x0 x1 x2 x3 x4 x5 x6 = k0_pay5 x0 x1 x4 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A; dsimp only; sl_unfold_words
  rw [View.canon_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-- It is zero plus the block's product. -/
theorem sout0_A_0_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) : sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay1 (k0_pay3 (F := F)) (k0_pay6 x0 x2 x5 x3 x6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A; dsimp only; sl_unfold_words
  rw [View.canon_cons_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-! ### Case B -/

theorem cover0_B_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) (y : S256x1024.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S256x1024.size (by sl_kernel_rfl) y

/-- What case B leaves in the projected-queries buffer: the found pieces read back. -/
def out0_B_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) : Vec F S256x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)

theorem scover0_B_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1 S1024x1024.size (by sl_kernel_rfl) y

/-- What case B leaves in the accumulator: the found pieces read back. -/
def sout0_B_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- It is the projection of the row block. -/
theorem out0_B_7_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) : out0_B_7 c i arg2 harg2 arg3 harg3 arg4 harg4 arg5 harg5 arg6 harg6 arg7 harg7 arg8 harg8 arg9 harg9 arg10 harg10 arg11 harg11 hc0 hc1 x0 x1 x2 x3 x4 x5 x6 xs0 = k0_pay5 x0 x1 x4 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B; dsimp only; sl_unfold_words
  rw [View.canon_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-- It is what the point before left plus the block's product. -/
theorem sout0_B_0_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) : sout0_B_0 c i arg2 harg2 arg3 harg3 arg4 harg4 arg5 harg5 arg6 harg6 arg7 harg7 arg8 harg8 arg9 harg9 arg10 harg10 arg11 harg11 hc0 hc1 x0 x1 x2 x3 x4 x5 x6 xs0 = k0_pay1 xs0 (k0_pay6 x0 x2 x5 x3 x6) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B; dsimp only; sl_unfold_words
  rw [View.canon_cons_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-! ### Case C -/

theorem cover0_C_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) (y : S256x1024.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S256x1024.size (by sl_kernel_rfl) y

/-- What case C leaves in the projected-queries buffer: the found pieces read back. -/
def out0_C_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : Vec F S256x1024 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)

theorem scover0_C_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1024x1024.size (by sl_kernel_rfl) y

/-- What case C leaves in the accumulator: the found pieces read back. -/
def sout0_C_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- It is the projection of the row block. -/
theorem out0_C_7_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : out0_C_7 c i arg2 harg2 arg3 harg3 arg4 harg4 arg5 harg5 arg6 harg6 arg7 harg7 arg8 harg8 arg9 harg9 arg10 harg10 arg11 harg11 hc0 hc1 x0 x1 x2 x3 x4 x5 x6 xs0 = k0_pay5 x0 x1 x4 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C; dsimp only; sl_unfold_words
  rw [View.canon_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-- It is what the point before left plus the block's product. -/
theorem sout0_C_0_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : sout0_C_0 c i arg2 harg2 arg3 harg3 arg4 harg4 arg5 harg5 arg6 harg6 arg7 harg7 arg8 harg8 arg9 harg9 arg10 harg10 arg11 harg11 hc0 hc1 x0 x1 x2 x3 x4 x5 x6 xs0 = k0_pay1 xs0 (k0_pay6 x0 x2 x5 x3 x6) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C; dsimp only; sl_unfold_words
  rw [View.canon_cons_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

theorem cover0_C_8 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) (y : S1x1024x1024.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1x1024x1024.size (by sl_kernel_rfl) y

/-- What case C leaves in the partial-product buffer: the found pieces read back. -/
def out0_C_8 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : Vec F S1x1024x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- It is the accumulator, as this point leaves it, scaled. -/
theorem out0_C_8_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : out0_C_8 c i arg2 harg2 arg3 harg3 arg4 harg4 arg5 harg5 arg6 harg6 arg7 harg7 arg8 harg8 arg9 harg9 arg10 harg10 arg11 harg11 hc0 hc1 x0 x1 x2 x3 x4 x5 x6 xs0 = k0_pay2 (k0_pay1 xs0 (k0_pay6 x0 x2 x5 x3 x6)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C; dsimp only; sl_unfold_words
  rw [View.canon_unit_zero hz3]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

end Cert.Kernel.Fr

end
-- ==== Proof.KR0Defs.lean ====
/-
  Region 0 (the projection pass) as proof data: what its two output buffers and its accumulator hold after every grid
  point, by recursion on the point — the projected queries of the point's row block; the accumulator zeroed and added to
  at the first step of a half and added to at every later step; the half's partial product, the accumulator scaled, at
  the last step —, and the invariant that carries the accumulator between points.
-/
import proofs.«116467_j79113297592362_2_alg».proof.Proof.KR0Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the accumulator hold after each point -/

/-- The projected queries of point `t`'s row block. -/
def qAt (c : Dev nD) (t : Fin cfg0.N) : Vec F S256x1024 .bf16 :=
  k0_pay5 (iblk0 V c 0 t) (iblk0 V c 1 t) (iblk0 V c 4 t)

/-- The accumulator after the body at position `n`: at the first step of a half zero plus the block's `kᵀ v`, at a later
    step what the point before left plus the block's. -/
def accAt (c : Dev nD) : (n : ℕ) → n < cfg0.N → Vec F S1024x1024 .f32
  | 0, hn => k0_pay1 (k0_pay3 (F := F)) (k0_pay6 (iblk0 V c 0 ⟨0, hn⟩) (iblk0 V c 2 ⟨0, hn⟩) (iblk0 V c 5 ⟨0, hn⟩) (iblk0 V c 3 ⟨0, hn⟩) (iblk0 V c 6 ⟨0, hn⟩))
  | n + 1, hn =>
    if (n + 1) % 16 = 0 then k0_pay1 (k0_pay3 (F := F)) (k0_pay6 (iblk0 V c 0 ⟨n + 1, hn⟩) (iblk0 V c 2 ⟨n + 1, hn⟩) (iblk0 V c 5 ⟨n + 1, hn⟩) (iblk0 V c 3 ⟨n + 1, hn⟩) (iblk0 V c 6 ⟨n + 1, hn⟩))
    else k0_pay1 (accAt c n (Nat.lt_of_succ_lt hn)) (k0_pay6 (iblk0 V c 0 ⟨n + 1, hn⟩) (iblk0 V c 2 ⟨n + 1, hn⟩) (iblk0 V c 5 ⟨n + 1, hn⟩) (iblk0 V c 3 ⟨n + 1, hn⟩) (iblk0 V c 6 ⟨n + 1, hn⟩))

theorem accAt_first (c : Dev nD) (t : Fin cfg0.N) (h0 : t.val % 16 = 0) :
    accAt V c t.val t.isLt = k0_pay1 (k0_pay3 (F := F)) (k0_pay6 (iblk0 V c 0 t) (iblk0 V c 2 t) (iblk0 V c 5 t) (iblk0 V c 3 t) (iblk0 V c 6 t)) := by
  obtain ⟨n, hn⟩ := t
  cases n with
  | zero => rfl
  | succ n => exact if_pos h0

theorem accAt_later (c : Dev nD) (t : Fin cfg0.N) (h0 : ¬t.val % 16 = 0) :
    accAt V c t.val t.isLt = k0_pay1 (accAt V c (t.val - 1) (Nat.lt_of_le_of_lt (Nat.sub_le _ _) t.isLt)) (k0_pay6 (iblk0 V c 0 t) (iblk0 V c 2 t) (iblk0 V c 5 t) (iblk0 V c 3 t) (iblk0 V c 6 t)) := by
  obtain ⟨n, hn⟩ := t
  cases n with
  | zero => exact absurd (Nat.zero_mod _) h0
  | succ n => exact if_neg h0

/-- The half's partial product as the last step of a half stores it: the accumulator scaled. (At the other points
    the window is idle and this is a placeholder nothing reads.) -/
def tAt (c : Dev nD) (t : Fin cfg0.N) : Vec F S1x1024x1024 .bf16 :=
  k0_pay2 (accAt V c t.val t.isLt)

/-- The other region's scoped buffers, which this one never touches. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The frame's invariant with the accumulator as a memref owned at some contents. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA; rw [scopedRest0_eq]; simp only [scM0_0, owns_whole]; try rfl

/-- The region's invariant before position `n`: before the first point anything in the scoped buffers; afterwards the
    accumulator at what the point before left in it, the other region's buffers at anything, the generator register. -/
def PhiS (c : Dev nD) : (n : ℕ) → n ≤ cfg0.N → sProp 𝕄
  | 0, _ => Pipeline.ΦA spec0 c
  | n + 1, hn => iprop(iprop(owns (c : Thread nD τ) scM0_0 fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt V c (n - 1) (by omega)) ∗ otherScoped (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => qAt V c t
    | ⟨8, _⟩ => tAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = qAt V c t := by dsimp only [dat0]
theorem after0_8 (c : Dev nD) (t : Fin cfg0.N) : (dat0 V c).after 8 t = tAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Cert.Kernel.Fr

end
-- ==== Proof.KR0Body.lean ====
/-
  Region 0: the body's obligation at every grid point. The step within the half decides the case; the accumulator is
  handed in at what the point before left (anything at the very first point) and taken back at this point's contents.
-/
import proofs.«116467_j79113297592362_2_alg».proof.Proof.KR0Pieces
import proofs.«116467_j79113297592362_2_alg».proof.Proof.KR0Defs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  unfold qAt
  by_cases h0 : t.val % 16 = 0
  · have h1 : ¬t.val % 16 = 15 := by omega
    rw [Dat.leavesExact_idle (dat0 V c) 8 t (idleAt0_8 t (fun h => h1 ((hcond0_1 t).mp h))) (noFlush0_8 t (fun h => h1 ((hcond0_1 t).mp h)))]
    rw [accAt_first V c t h0]
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, ⟨%e7, H7⟩, H8, ⟨%es0, HS0⟩⟩
      isplitl [HS0 Hoth Hg]
      · isplitl [HS0 Hoth]
        · isplitl [HS0]
          · unfold owns; iexists _; isplitr
            swap; · iexact HS0
            ipureintro; exact (View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))).trans (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))).trans (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
      iexists _; iexact H8
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexists _; iexact HS0
      iintro ⟨H0, H1, H2, H3, H4, H5, H6, ⟨%e7, H7⟩, H8, ⟨%es0, HS0⟩⟩
      isplitl [HS0 Hoth Hg]
      · isplitl [HS0 Hoth]
        · isplitl [HS0]
          · unfold owns; iexists _; isplitr
            swap; · iexact HS0
            ipureintro; exact (View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))).trans (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))).trans (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
      iexists _; iexact H8
  · have hz : t.val ≠ 0 := by omega
    by_cases h1 : t.val % 16 = 15
    · rw [show (dat0 V c).leavesExact 8 t = owns (c : Thread nD τ) (ms0_8 t) fullShare ((dat0 V c).after 8 t) from by
        unfold Dat.leavesExact; rw [liveAt0_8 t ((hcond0_1 t).mpr h1)], after0_8]
      unfold tAt
      rw [accAt_later V c t h0]
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hoth Hg]
      · isplitl [HS0 Hoth]
        · isplitl [HS0]
          · unfold owns; iexists _; isplitr
            swap; · iexact HS0
            ipureintro; exact (View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
      unfold owns; iexists _; isplitr
      swap; · iexact H8
      ipureintro; exact (View.read_writes_of_cover _ _ _ _ _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
    · rw [Dat.leavesExact_idle (dat0 V c) 8 t (idleAt0_8 t (fun h => h1 ((hcond0_1 t).mp h))) (noFlush0_8 t (fun h => h1 ((hcond0_1 t).mp h)))]
      rw [accAt_later V c t h0]
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, ⟨%e7, H7⟩, H8, ⟨%es0, HS0⟩⟩
      isplitl [HS0 Hoth Hg]
      · isplitl [HS0 Hoth]
        · isplitl [HS0]
          · unfold owns; iexists _; isplitr
            swap; · iexact HS0
            ipureintro; exact (View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Cert.Kernel.Fr

end
-- ==== Proof.KR1Conds.lean ====
/-
  Region 1 (the output pass): names for the staging memrefs its body is called with; no window of it is ever idle.
-/
import proofs.«116467_j79113297592362_2_alg».proof.Proof.Gen.Kernel.Launch
import proofs.«116467_j79113297592362_2_alg».proof.Proof.Gen.Kernel.Skeleton
import proofs.«116467_j79113297592362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev VO1_2 : View sig .tc .vmem S1024x1024 .f32 := (Memref.whole cc1_stg2_0 : Memref sig .tc .vmem S1024x1024 .f32).view

/-- The two halves' slabs of the partial-product buffer, as the body loads them. -/
abbrev r1_T0 : Rect S2x1024x1024 := Rect.unit (s := S2x1024x1024) ![0, 0, 0] S1x1024x1024.size inb_S2x1024x1024_S1x1024x1024_0_0_0
abbrev r1_T1 : Rect S2x1024x1024 := Rect.unit (s := S2x1024x1024) ![1, 0, 0] S1x1024x1024.size inb_S2x1024x1024_S1x1024x1024_1_0_0

end Cert.Kernel.Fr

end
-- ==== Proof.KR1Run.lean ====
/-
  Region 1, the body run whole: it reads the two halves' partial products and the queries' block and stores their product.
-/
import proofs.«116467_j79113297592362_2_alg».proof.Proof.KR1Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the pieces the output buffer ends with, found by running it. -/
noncomputable def kernelRun1 (c : Dev nD) (i : grid1.Coords) (arg1 : Memref sig .tc .vmem S1024x1024 .bf16) (harg1 : arg1.IsWhole) (arg2 : Memref sig .tc .vmem S2x1024x1024 .bf16) (harg2 : arg2.IsWhole) (arg3 : Memref sig .tc .vmem S1024x1024 .f32) (harg3 : arg3.IsWhole)
    (x0 : Vec F S1024x1024 .bf16) (x1 : Vec F S2x1024x1024 .bf16) :
    { L2 : List (View.Piece (Elt F) S1024x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__out_kernel i arg1 harg1 arg2 harg2 arg3 harg3) K } := by
  refine ⟨?_, fun E K => ?run⟩
  case run =>
    simp only [cc1__out_kernel_eq_skeleton]; unfold cc1__out_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The one store into the output buffer covers it. -/
theorem cover1_2 (c : Dev nD) (i : grid1.Coords) (arg1 : Memref sig .tc .vmem S1024x1024 .bf16) (harg1 : arg1.IsWhole) (arg2 : Memref sig .tc .vmem S2x1024x1024 .bf16) (harg2 : arg2.IsWhole) (arg3 : Memref sig .tc .vmem S1024x1024 .f32) (harg3 : arg3.IsWhole)
    (x0 : Vec F S1024x1024 .bf16) (x1 : Vec F S2x1024x1024 .bf16) (y : S1024x1024.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S1024x1024.size (by sl_kernel_rfl) y

/-- What the body leaves in the output buffer: the found pieces read back. -/
def out1_2 (c : Dev nD) (i : grid1.Coords) (arg1 : Memref sig .tc .vmem S1024x1024 .bf16) (harg1 : arg1.IsWhole) (arg2 : Memref sig .tc .vmem S2x1024x1024 .bf16) (harg2 : arg2.IsWhole) (arg3 : Memref sig .tc .vmem S1024x1024 .f32) (harg3 : arg3.IsWhole)
    (x0 : Vec F S1024x1024 .bf16) (x1 : Vec F S2x1024x1024 .bf16) : Vec F S1024x1024 .f32 :=
  VO1_2.read (Elt F) (VO1_2.writes (Elt F) VO1_2.junk (kernelRun1 c i arg1 harg1 arg2 harg2 arg3 harg3 x0 x1).1)

end Cert.Kernel.Fr

end
-- ==== Proof.KR1Defs.lean ====
/-
  Region 1 (the output pass) as proof data: after the body at a grid point the output buffer holds the product of the
  point's block of queries with the sum of the two halves' partial products.
-/
import proofs.«116467_j79113297592362_2_alg».proof.Proof.KR1Conds

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output buffer at point `t`. -/
def outAt1 (c : Dev nD) (t : Fin cfg1.N) : Vec F S1024x1024 .f32 :=
  k1_pay1 (View.ld (iblk1 V c 1 t : Vec F S2x1024x1024 .bf16) r1_T0) (View.ld (iblk1 V c 1 t : Vec F S2x1024x1024 .bf16) r1_T1) (iblk1 V c 0 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.Kernel.Fr

end
-- ==== Proof.KR1Body.lean ====
/-
  Region 1: what the found pieces read back as — the product of the queries' block with the sum of the two halves'
  partial products — and the body's obligation at every grid point.
-/
import proofs.«116467_j79113297592362_2_alg».proof.Proof.KR1Run
import proofs.«116467_j79113297592362_2_alg».proof.Proof.KR1Defs
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := by funext a; fin_cases a <;> rfl

theorem out1_2_eq (c : Dev nD) (i : grid1.Coords) (arg1 : Memref sig .tc .vmem S1024x1024 .bf16) (harg1 : arg1.IsWhole) (arg2 : Memref sig .tc .vmem S2x1024x1024 .bf16) (harg2 : arg2.IsWhole) (arg3 : Memref sig .tc .vmem S1024x1024 .f32) (harg3 : arg3.IsWhole)
    (x0 : Vec F S1024x1024 .bf16) (x1 : Vec F S2x1024x1024 .bf16) :
    out1_2 c i arg1 harg1 arg2 harg2 arg3 harg3 x0 x1 = k1_pay1 (View.ld x1 r1_T0) (View.ld x1 r1_T1) x0 := by
  unfold out1_2
  rw [View.read_writes_eq_canon _ _ _ (cover1_2 c i arg1 harg1 arg2 harg2 arg3 harg3 x0 x1)]
  unfold kernelRun1; dsimp only; sl_unfold_words
  rw [View.canon_unit_zero hz2']
  simp only [View.readAt_eq_ld, harg1.read_unread, harg2.read_unread, View.ld_unit_zero (S := S1024x1024) hz2']
  try rfl

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1
  iintro ⟨HΦ, Ho, ⟨%d0, H0⟩, ⟨%d1, H1⟩, ⟨%d2, H2⟩⟩
  iapply ((kernelRun1 c (grid1.coords t) (ms1_0 t) (hs1_0 t) (ms1_1 t) (hs1_1 t) (ms1_2 t) (hs1_2 t) (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro
  exact (View.read_writes_of_cover _ _ _ _ _ (cover1_2 c (grid1.coords t) (ms1_0 t) (hs1_0 t) (ms1_1 t) (hs1_1 t) (ms1_2 t) (hs1_2 t) (iblk1 V c 0 t) (iblk1 V c 1 t))).trans
    (out1_2_eq c (grid1.coords t) (ms1_0 t) (hs1_0 t) (ms1_1 t) (hs1_1 t) (ms1_2 t) (hs1_2 t) (iblk1 V c 0 t) (iblk1 V c 1 t))

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KRun.lean ====
/-
  The whole run: @main as three segments — the host operations that prepare the operands, the projection pass, the
  output pass — over the buffer contents at each boundary, and what every unscoped buffer holds at the end: the
  arguments as launched, the result at what the output pass's write-backs leave.
-/
import proofs.«116467_j79113297592362_2_alg».proof.Proof.KR0Body
import proofs.«116467_j79113297592362_2_alg».proof.Proof.KR1Body
import proofs.«116467_j79113297592362_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Entering the projection pass: the launch contents after the host operations, read at the core's references. -/
abbrev Va : (c : Dev nD) → (b : Ref sig .tc) → Buf (Elt F) ((c : Thread nD τ).loc b) := fun c b => V1 m c b
/-- Leaving it: its arrays at what its write-backs leave, every other buffer as entered. -/
def Wb (c : Dev nD) : Valuation τ sig (Elt F) :=
  Pipeline.withArrays spec0 c (V1 m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = V1 m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- Leaving the output pass: its arrays at what its write-backs leave, every other buffer as entered. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-! ## The arguments end as launched; the result ends at the output pass's write-backs -/

theorem Wc_main_arg0 (c : Dev nD) : Wc m c (Proc.devRef .tc main_arg0) = m ((c : Thread nD τ).loc main_arg0) :=
  (Wc_of_ne m c main_arg0 (by decide)).trans <| ((Wb_arr m c 0).trans (((dat0 (Va m) c).arrAt_in 0 rfl _).trans (A_eq0 (Va m) c 0))).trans <| (V1_of m c main_arg0 (by decide)).trans rfl
theorem Wc_main_arg1 (c : Dev nD) : Wc m c (Proc.devRef .tc main_arg1) = m ((c : Thread nD τ).loc main_arg1) :=
  (Wc_of_ne m c main_arg1 (by decide)).trans <| (Wb_of_ne m c main_arg1 (by decide)).trans <| (V1_of m c main_arg1 (by decide)).trans rfl
theorem Wc_main_arg2 (c : Dev nD) : Wc m c (Proc.devRef .tc main_arg2) = m ((c : Thread nD τ).loc main_arg2) :=
  (Wc_of_ne m c main_arg2 (by decide)).trans <| (Wb_of_ne m c main_arg2 (by decide)).trans <| (V1_of m c main_arg2 (by decide)).trans rfl
theorem Wc_main_arg3 (c : Dev nD) : Wc m c (Proc.devRef .tc main_arg3) = m ((c : Thread nD τ).loc main_arg3) :=
  (Wc_of_ne m c main_arg3 (by decide)).trans <| (Wb_of_ne m c main_arg3 (by decide)).trans <| (V1_of m c main_arg3 (by decide)).trans rfl
theorem Wc_main_arg4 (c : Dev nD) : Wc m c (Proc.devRef .tc main_arg4) = m ((c : Thread nD τ).loc main_arg4) :=
  (Wc_of_ne m c main_arg4 (by decide)).trans <| (Wb_of_ne m c main_arg4 (by decide)).trans <| (V1_of m c main_arg4 (by decide)).trans rfl
theorem Wc_main_arg5 (c : Dev nD) : Wc m c (Proc.devRef .tc main_arg5) = m ((c : Thread nD τ).loc main_arg5) :=
  (Wc_of_ne m c main_arg5 (by decide)).trans <| (Wb_of_ne m c main_arg5 (by decide)).trans <| (V1_of m c main_arg5 (by decide)).trans rfl
theorem Wc_main_arg6 (c : Dev nD) : Wc m c (Proc.devRef .tc main_arg6) = m ((c : Thread nD τ).loc main_arg6) :=
  (Wc_of_ne m c main_arg6 (by decide)).trans <| (Wb_of_ne m c main_arg6 (by decide)).trans <| (V1_of m c main_arg6 (by decide)).trans rfl
theorem Wc_main_v7 (c : Dev nD) : Wc m c (Proc.devRef .tc main_v7) = (dat1 (Vb m) c).arrAt 2 cfg1.N := Wc_arr m c 2

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wc m c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    refine BIBase.Entails.trans (hout0 (Va m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and in every
    final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m c b)
    (hfin := fun c s' => by
      iintro ⟨⟨Hh, -⟩, HSI⟩
      unfold StableHlo.held
      imodintro
      iapply (pointsTo_read_all (Pipeline.ucRefs τ sig) (fun b => (((c : Thread nD τ)).1, b)) (Wc m c) s')
      isplitl [Hh] <;> iassumption)
    (hQ := fun s h c => h c)

/-- The same read at the arguments and the result. -/
theorem run_main : θ_run defs (onTc (τ := τ) (main (F := F))) ⟨m, fun _ => 0, ρ⟩ (fun r => ∀ c : Dev nD,
      r.2.mem ((c.tc : Thread nD τ).loc main_v7) = (dat1 (Vb m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v7 (by decide))).trans (Wc_main_v7 m c),
     (h c _ (mem_uc main_arg0 (by decide))).trans (Wc_main_arg0 m c),
     (h c _ (mem_uc main_arg1 (by decide))).trans (Wc_main_arg1 m c),
     (h c _ (mem_uc main_arg2 (by decide))).trans (Wc_main_arg2 m c),
     (h c _ (mem_uc main_arg3 (by decide))).trans (Wc_main_arg3 m c),
     (h c _ (mem_uc main_arg4 (by decide))).trans (Wc_main_arg4 m c),
     (h c _ (mem_uc main_arg5 (by decide))).trans (Wc_main_arg5 m c),
     (h c _ (mem_uc main_arg6 (by decide))).trans (Wc_main_arg6 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.Kernel.Fr

end
-- ==== Proof.R0Conds.lean ====
/-
  Region 0 (the projection pass): its body's two conditionals in closed form over the 2 × 16 grid, where its windows
  are idle, and names for the staging memrefs the body is called with.
-/
import proofs.«116467_j79113297592362_2_alg».proof.Proof.Gen.KernelIdeal.Launch
import proofs.«116467_j79113297592362_2_alg».proof.Proof.Gen.KernelIdeal.Skeleton
import proofs.«116467_j79113297592362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals, decided over the grid -/

/-- The first conditional: the step within the half is 0 (the accumulator is zeroed). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The second conditional: the step within the half is 15 (the half's partial product is stored). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! ## The staging memrefs at a point, the scratch, and the views contents are stated through -/
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x1024 .bf16 := win0_8.stage (cfg0.slots t 8)
abbrev hs0_8 (t : Fin cfg0.N) : (ms0_8 t).IsWhole := hstage0_8 ((cfg0.slots t 8).cast nbuf0_8)
abbrev scM0_0 : Memref sig .tc .vmem S1024x1024 .f32 := Memref.whole cc0_scratch0
abbrev VS0_0 : View sig .tc .vmem S1024x1024 .f32 := scM0_0.view
abbrev VO0_7 : View sig .tc .vmem S256x1024 .bf16 := (Memref.whole cc0_stg7_0 : Memref sig .tc .vmem S256x1024 .bf16).view
abbrev VO0_8 : View sig .tc .vmem S1x1024x1024 .bf16 := (Memref.whole cc0_stg8_0 : Memref sig .tc .vmem S1x1024x1024 .bf16).view

end Cert.KernelIdeal.Fr

end
-- ==== Proof.R0RunA.lean ====
/-
  Region 0, the body run whole in case A of its conditionals.
-/
import proofs.«116467_j79113297592362_2_alg».proof.Proof.R0Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case A of its two conditionals (first step of a half: the accumulator is zeroed, then added to), on whole staging memrefs: the pieces each written buffer ends with, found by running it. -/
noncomputable def kernelRun0_A (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) :
    Σ' (L7 : List (View.Piece (Elt F) S256x1024 .bf16)), { LS0 : List (View.Piece (Elt F) S1024x1024 .f32) //
      ∀ (xi8 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__proj_kv_kernel i arg2 harg2 arg3 harg3 arg4 harg4 arg5 harg5 arg6 harg6 arg7 harg7 arg8 harg8 arg9 harg9 arg10 harg10 arg11 harg11) K } := by
  refine ⟨?_, ?_, fun xi8 E K => ?run⟩
  case run =>
    simp only [cc0__proj_kv_kernel_eq_skeleton]; unfold cc0__proj_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.KernelIdeal.Fr

end
-- ==== Proof.R0RunB.lean ====
/-
  Region 0, the body run whole in case B of its conditionals.
-/
import proofs.«116467_j79113297592362_2_alg».proof.Proof.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case B of its two conditionals (a middle step: the accumulator is added to), on whole staging memrefs: the pieces each written buffer ends with, found by running it. -/
noncomputable def kernelRun0_B (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) :
    Σ' (L7 : List (View.Piece (Elt F) S256x1024 .bf16)), { LS0 : List (View.Piece (Elt F) S1024x1024 .f32) //
      ∀ (xi8 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc0__proj_kv_kernel i arg2 harg2 arg3 harg3 arg4 harg4 arg5 harg5 arg6 harg6 arg7 harg7 arg8 harg8 arg9 harg9 arg10 harg10 arg11 harg11) K } := by
  refine ⟨?_, ?_, fun xi8 E K => ?run⟩
  case run =>
    simp only [cc0__proj_kv_kernel_eq_skeleton]; unfold cc0__proj_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; iexact HS0

end Cert.KernelIdeal.Fr

end
-- ==== Proof.R0RunC.lean ====
/-
  Region 0, the body run whole in case C of its conditionals.
-/
import proofs.«116467_j79113297592362_2_alg».proof.Proof.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in case C of its two conditionals (last step of a half: the accumulator is added to, scaled and stored as the half's partial product), on whole staging memrefs: the pieces each written buffer ends with, found by running it. -/
noncomputable def kernelRun0_C (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) :
    Σ' (L7 : List (View.Piece (Elt F) S256x1024 .bf16)) (L8 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0__proj_kv_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__proj_kv_kernel_eq_skeleton]; unfold cc0__proj_kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS0

end Cert.KernelIdeal.Fr

end
-- ==== Proof.R0Pieces.lean ====
/-
  Region 0: what the found pieces of each case read back as, through the body's named arithmetic — the projected queries
  of the row block; the accumulator zeroed (or as the point before left it) plus the block's product; at the last step of
  a half that accumulator scaled.
-/
import proofs.«116467_j79113297592362_2_alg».proof.Proof.R0RunC
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl
theorem hz3 : (![0, 0, 0] : Fin 3 → Nat) = fun _ => 0 := by funext a; fin_cases a <;> rfl

/-! ### Case A -/

theorem cover0_A_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) (y : S256x1024.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).1 S256x1024.size (by sl_kernel_rfl) y

/-- What case A leaves in the projected-queries buffer: the found pieces read back. -/
def out0_A_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) : Vec F S256x1024 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 hc0 hc1 x0 x1 x2 x3 x4 x5 x6).1)

theorem scover0_A_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) (y : S1024x1024.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5 x6).2.1 S1024x1024.size (by sl_kernel_rfl) y

/-- What case A leaves in the accumulator: the found pieces read back. -/
def sout0_A_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5 x6).2.1)

/-- It is the projection of the row block. -/
theorem out0_A_7_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) : out0_A_7 c i arg2 harg2 arg3 harg3 arg4 harg4 arg5 harg5 arg6 harg6 arg7 harg7 arg8 harg8 arg9 harg9 arg10 harg10 arg11 harg11 hc0 hc1 x0 x1 x2 x3 x4 x5 x6 = k0_pay5 x0 x1 x4 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A; dsimp only; sl_unfold_words
  rw [View.canon_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-- It is zero plus the block's product. -/
theorem sout0_A_0_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : cond0_0 i) (hc1 : ¬cond0_1 i)
    (x0 : Vec F S256x1024 .f32) (x1 x2 x3 : Vec F S1024x1024 .bf16) (x4 x5 x6 : Vec F S1x1024 .f32) : sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay1 (k0_pay3 (F := F)) (k0_pay6 x0 x2 x5 x3 x6) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A; dsimp only; sl_unfold_words
  rw [View.canon_cons_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-! ### Case B -/

theorem cover0_B_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) (y : S256x1024.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1 S256x1024.size (by sl_kernel_rfl) y

/-- What case B leaves in the projected-queries buffer: the found pieces read back. -/
def out0_B_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) : Vec F S256x1024 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).1)

theorem scover0_B_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1 S1024x1024.size (by sl_kernel_rfl) y

/-- What case B leaves in the accumulator: the found pieces read back. -/
def sout0_B_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 x6 xs0).2.1)

/-- It is the projection of the row block. -/
theorem out0_B_7_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) : out0_B_7 c i arg2 harg2 arg3 harg3 arg4 harg4 arg5 harg5 arg6 harg6 arg7 harg7 arg8 harg8 arg9 harg9 arg10 harg10 arg11 harg11 hc0 hc1 x0 x1 x2 x3 x4 x5 x6 xs0 = k0_pay5 x0 x1 x4 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B; dsimp only; sl_unfold_words
  rw [View.canon_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-- It is what the point before left plus the block's product. -/
theorem sout0_B_0_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : ¬cond0_1 i)
    (x0 : Vec F S256x1024 .f32) (x1 x2 x3 : Vec F S1024x1024 .bf16) (x4 x5 x6 : Vec F S1x1024 .f32) (xs0 : Vec F S1024x1024 .f32) : sout0_B_0 c i arg2 harg2 arg3 harg3 arg4 harg4 arg5 harg5 arg6 harg6 arg7 harg7 arg8 harg8 arg9 harg9 arg10 harg10 arg11 harg11 hc0 hc1 x0 x1 x2 x3 x4 x5 x6 xs0 = k0_pay1 xs0 (k0_pay6 x0 x2 x5 x3 x6) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_B; dsimp only; sl_unfold_words
  rw [View.canon_cons_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-! ### Case C -/

theorem cover0_C_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) (y : S256x1024.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1 S256x1024.size (by sl_kernel_rfl) y

/-- What case C leaves in the projected-queries buffer: the found pieces read back. -/
def out0_C_7 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : Vec F S256x1024 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).1)

theorem scover0_C_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1 S1024x1024.size (by sl_kernel_rfl) y

/-- What case C leaves in the accumulator: the found pieces read back. -/
def sout0_C_0 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.2.1)

/-- It is the projection of the row block. -/
theorem out0_C_7_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : out0_C_7 c i arg2 harg2 arg3 harg3 arg4 harg4 arg5 harg5 arg6 harg6 arg7 harg7 arg8 harg8 arg9 harg9 arg10 harg10 arg11 harg11 hc0 hc1 x0 x1 x2 x3 x4 x5 x6 xs0 = k0_pay5 x0 x1 x4 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C; dsimp only; sl_unfold_words
  rw [View.canon_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

/-- It is what the point before left plus the block's product. -/
theorem sout0_C_0_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : sout0_C_0 c i arg2 harg2 arg3 harg3 arg4 harg4 arg5 harg5 arg6 harg6 arg7 harg7 arg8 harg8 arg9 harg9 arg10 harg10 arg11 harg11 hc0 hc1 x0 x1 x2 x3 x4 x5 x6 xs0 = k0_pay1 xs0 (k0_pay6 x0 x2 x5 x3 x6) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C; dsimp only; sl_unfold_words
  rw [View.canon_cons_unit_zero hz2]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

theorem cover0_C_8 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) (y : S1x1024x1024.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1 S1x1024x1024.size (by sl_kernel_rfl) y

/-- What case C leaves in the partial-product buffer: the found pieces read back. -/
def out0_C_8 (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : Vec F S1x1024x1024 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 hc0 hc1 x0 x1 x2 x3 x4 x5 x6 xs0).2.1)

/-- It is the accumulator, as this point leaves it, scaled. -/
theorem out0_C_8_eq (c : Dev nD) (i : grid0.Coords) (arg2 : Memref sig .tc .vmem S256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .bf16) (harg9 : arg9.IsWhole) (arg10 : Memref sig .tc .vmem S1x1024x1024 .bf16) (harg10 : arg10.IsWhole) (arg11 : Memref sig .tc .vmem S1024x1024 .f32) (harg11 : arg11.IsWhole) (hc0 : ¬cond0_0 i) (hc1 : cond0_1 i)
    (x0 : Vec F S256x1024 .f32) (x1 x2 x3 : Vec F S1024x1024 .bf16) (x4 x5 x6 : Vec F S1x1024 .f32) (xs0 : Vec F S1024x1024 .f32) : out0_C_8 c i arg2 harg2 arg3 harg3 arg4 harg4 arg5 harg5 arg6 harg6 arg7 harg7 arg8 harg8 arg9 harg9 arg10 harg10 arg11 harg11 hc0 hc1 x0 x1 x2 x3 x4 x5 x6 xs0 = k0_pay2 (k0_pay1 xs0 (k0_pay6 x0 x2 x5 x3 x6)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 xs0)]
  unfold kernelRun0_C; dsimp only; sl_unfold_words
  rw [View.canon_unit_zero hz3]
  try rw [View.readCov_unit_zero _ hz2]
  try rw [View.readCov_unit_zero _ hz2]
  simp only [View.readAt_eq_ld, harg2.read_unread, harg3.read_unread, harg4.read_unread, harg5.read_unread, harg6.read_unread, harg7.read_unread, harg8.read_unread, harg11.read_unread,
    View.ld_unit_zero (S := S256x1024) hz2, View.ld_unit_zero (S := S1024x1024) hz2, View.ld_unit_zero (S := S1x1024) hz2]
  try rfl

end Cert.KernelIdeal.Fr

end
-- ==== Proof.R0Defs.lean ====
/-
  Region 0 (the projection pass) as proof data: what its two output buffers and its accumulator hold after every grid
  point, by recursion on the point — the projected queries of the point's row block; the accumulator zeroed and added to
  at the first step of a half and added to at every later step; the half's partial product, the accumulator scaled, at
  the last step —, and the invariant that carries the accumulator between points.
-/
import proofs.«116467_j79113297592362_2_alg».proof.Proof.R0Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs and the accumulator hold after each point -/

/-- The projected queries of point `t`'s row block. -/
def qAt (c : Dev nD) (t : Fin cfg0.N) : Vec F S256x1024 .bf16 :=
  k0_pay5 (iblk0 V c 0 t) (iblk0 V c 1 t) (iblk0 V c 4 t)

/-- The accumulator after the body at position `n`: at the first step of a half zero plus the block's `kᵀ v`, at a later
    step what the point before left plus the block's. -/
def accAt (c : Dev nD) : (n : ℕ) → n < cfg0.N → Vec F S1024x1024 .f32
  | 0, hn => k0_pay1 (k0_pay3 (F := F)) (k0_pay6 (iblk0 V c 0 ⟨0, hn⟩) (iblk0 V c 2 ⟨0, hn⟩) (iblk0 V c 5 ⟨0, hn⟩) (iblk0 V c 3 ⟨0, hn⟩) (iblk0 V c 6 ⟨0, hn⟩))
  | n + 1, hn =>
    if (n + 1) % 16 = 0 then k0_pay1 (k0_pay3 (F := F)) (k0_pay6 (iblk0 V c 0 ⟨n + 1, hn⟩) (iblk0 V c 2 ⟨n + 1, hn⟩) (iblk0 V c 5 ⟨n + 1, hn⟩) (iblk0 V c 3 ⟨n + 1, hn⟩) (iblk0 V c 6 ⟨n + 1, hn⟩))
    else k0_pay1 (accAt c n (Nat.lt_of_succ_lt hn)) (k0_pay6 (iblk0 V c 0 ⟨n + 1, hn⟩) (iblk0 V c 2 ⟨n + 1, hn⟩) (iblk0 V c 5 ⟨n + 1, hn⟩) (iblk0 V c 3 ⟨n + 1, hn⟩) (iblk0 V c 6 ⟨n + 1, hn⟩))

theorem accAt_first (c : Dev nD) (t : Fin cfg0.N) (h0 : t.val % 16 = 0) :
    accAt V c t.val t.isLt = k0_pay1 (k0_pay3 (F := F)) (k0_pay6 (iblk0 V c 0 t) (iblk0 V c 2 t) (iblk0 V c 5 t) (iblk0 V c 3 t) (iblk0 V c 6 t)) := by
  obtain ⟨n, hn⟩ := t
  cases n with
  | zero => rfl
  | succ n => exact if_pos h0

theorem accAt_later (c : Dev nD) (t : Fin cfg0.N) (h0 : ¬t.val % 16 = 0) :
    accAt V c t.val t.isLt = k0_pay1 (accAt V c (t.val - 1) (Nat.lt_of_le_of_lt (Nat.sub_le _ _) t.isLt)) (k0_pay6 (iblk0 V c 0 t) (iblk0 V c 2 t) (iblk0 V c 5 t) (iblk0 V c 3 t) (iblk0 V c 6 t)) := by
  obtain ⟨n, hn⟩ := t
  cases n with
  | zero => exact absurd (Nat.zero_mod _) h0
  | succ n => exact if_neg h0

/-- The half's partial product as the last step of a half stores it: the accumulator scaled. (At the other points
    the window is idle and this is a placeholder nothing reads.) -/
def tAt (c : Dev nD) (t : Fin cfg0.N) : Vec F S1x1024x1024 .bf16 :=
  k0_pay2 (accAt V c t.val t.isLt)

/-- The other region's scoped buffers, which this one never touches. -/
abbrev otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The frame's invariant with the accumulator as a memref owned at some contents. -/
theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA; rw [scopedRest0_eq]; simp only [scM0_0, owns_whole]; try rfl

/-- The region's invariant before position `n`: before the first point anything in the scoped buffers; afterwards the
    accumulator at what the point before left in it, the other region's buffers at anything, the generator register. -/
def PhiS (c : Dev nD) : (n : ℕ) → n ≤ cfg0.N → sProp 𝕄
  | 0, _ => Pipeline.ΦA spec0 c
  | n + 1, hn => iprop(iprop(owns (c : Thread nD τ) scM0_0 fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt V c (n - 1) (by omega)) ∗ otherScoped (F := F) c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => qAt V c t
    | ⟨8, _⟩ => tAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = qAt V c t := by dsimp only [dat0]
theorem after0_8 (c : Dev nD) (t : Fin cfg0.N) : (dat0 V c).after 8 t = tAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Cert.KernelIdeal.Fr

end
-- ==== Proof.R0Body.lean ====
/-
  Region 0: the body's obligation at every grid point. The step within the half decides the case; the accumulator is
  handed in at what the point before left (anything at the very first point) and taken back at this point's contents.
-/
import proofs.«116467_j79113297592362_2_alg».proof.Proof.R0Pieces
import proofs.«116467_j79113297592362_2_alg».proof.Proof.R0Defs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 16000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  unfold qAt
  by_cases h0 : t.val % 16 = 0
  · have h1 : ¬t.val % 16 = 15 := by omega
    rw [Dat.leavesExact_idle (dat0 V c) 8 t (idleAt0_8 t (fun h => h1 ((hcond0_1 t).mp h))) (noFlush0_8 t (fun h => h1 ((hcond0_1 t).mp h)))]
    rw [accAt_first V c t h0]
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, ⟨%e7, H7⟩, H8, ⟨%es0, HS0⟩⟩
      isplitl [HS0 Hoth Hg]
      · isplitl [HS0 Hoth]
        · isplitl [HS0]
          · unfold owns; iexists _; isplitr
            swap; · iexact HS0
            ipureintro; exact (View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))).trans (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))).trans (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
      iexists _; iexact H8
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexists _; iexact HS0
      iintro ⟨H0, H1, H2, H3, H4, H5, H6, ⟨%e7, H7⟩, H8, ⟨%es0, HS0⟩⟩
      isplitl [HS0 Hoth Hg]
      · isplitl [HS0 Hoth]
        · isplitl [HS0]
          · unfold owns; iexists _; isplitr
            swap; · iexact HS0
            ipureintro; exact (View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))).trans (sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))).trans (out0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t))
      iexists _; iexact H8
  · have hz : t.val ≠ 0 := by omega
    by_cases h1 : t.val % 16 = 15
    · rw [show (dat0 V c).leavesExact 8 t = owns (c : Thread nD τ) (ms0_8 t) fullShare ((dat0 V c).after 8 t) from by
        unfold Dat.leavesExact; rw [liveAt0_8 t ((hcond0_1 t).mpr h1)], after0_8]
      unfold tAt
      rw [accAt_later V c t h0]
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [HS0]; · iexact HS0
      iintro ⟨H0, H1, H2, H3, H4, H5, H6, ⟨%e7, H7⟩, ⟨%e8, H8⟩, ⟨%es0, HS0⟩⟩
      isplitl [HS0 Hoth Hg]
      · isplitl [HS0 Hoth]
        · isplitl [HS0]
          · unfold owns; iexists _; isplitr
            swap; · iexact HS0
            ipureintro; exact (View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ _ _ _ (cover0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (out0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
      unfold owns; iexists _; isplitr
      swap; · iexact H8
      ipureintro; exact (View.read_writes_of_cover _ _ _ _ _ (cover0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (out0_C_8_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
    · rw [Dat.leavesExact_idle (dat0 V c) 8 t (idleAt0_8 t (fun h => h1 ((hcond0_1 t).mp h))) (noFlush0_8 t (fun h => h1 ((hcond0_1 t).mp h)))]
      rw [accAt_later V c t h0]
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS0]; · iexact HS0
      iintro ⟨H0, H1, H2, H3, H4, H5, H6, ⟨%e7, H7⟩, H8, ⟨%es0, HS0⟩⟩
      isplitl [HS0 Hoth Hg]
      · isplitl [HS0 Hoth]
        · isplitl [HS0]
          · unfold owns; iexists _; isplitr
            swap; · iexact HS0
            ipureintro; exact (View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact (View.read_writes_of_cover _ _ _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))).trans (out0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (accAt V c (t.val - 1) (Nat.lt_of_le_of_lt (Nat.sub_le _ _) t.isLt)))
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scoped buffers back, the accumulator's contents forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Cert.KernelIdeal.Fr

end
-- ==== Proof.R1Conds.lean ====
/-
  Region 1 (the output pass): names for the staging memrefs its body is called with; no window of it is ever idle.
-/
import proofs.«116467_j79113297592362_2_alg».proof.Proof.Gen.KernelIdeal.Launch
import proofs.«116467_j79113297592362_2_alg».proof.Proof.Gen.KernelIdeal.Skeleton
import proofs.«116467_j79113297592362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev VO1_2 : View sig .tc .vmem S1024x1024 .f32 := (Memref.whole cc1_stg2_0 : Memref sig .tc .vmem S1024x1024 .f32).view

/-- The two halves' slabs of the partial-product buffer, as the body loads them. -/
abbrev r1_T0 : Rect S2x1024x1024 := Rect.unit (s := S2x1024x1024) ![0, 0, 0] S1x1024x1024.size inb_S2x1024x1024_S1x1024x1024_0_0_0
abbrev r1_T1 : Rect S2x1024x1024 := Rect.unit (s := S2x1024x1024) ![1, 0, 0] S1x1024x1024.size inb_S2x1024x1024_S1x1024x1024_1_0_0

end Cert.KernelIdeal.Fr

end
-- ==== Proof.R1Run.lean ====
/-
  Region 1, the body run whole: it reads the two halves' partial products and the queries' block and stores their product.
-/
import proofs.«116467_j79113297592362_2_alg».proof.Proof.R1Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs: the pieces the output buffer ends with, found by running it. -/
noncomputable def kernelRun1 (c : Dev nD) (i : grid1.Coords) (arg1 : Memref sig .tc .vmem S1024x1024 .bf16) (harg1 : arg1.IsWhole) (arg2 : Memref sig .tc .vmem S2x1024x1024 .bf16) (harg2 : arg2.IsWhole) (arg3 : Memref sig .tc .vmem S1024x1024 .f32) (harg3 : arg3.IsWhole)
    (x0 : Vec F S1024x1024 .bf16) (x1 : Vec F S2x1024x1024 .bf16) :
    { L2 : List (View.Piece (Elt F) S1024x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__out_kernel i arg1 harg1 arg2 harg2 arg3 harg3) K } := by
  refine ⟨?_, fun E K => ?run⟩
  case run =>
    simp only [cc1__out_kernel_eq_skeleton]; unfold cc1__out_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The one store into the output buffer covers it. -/
theorem cover1_2 (c : Dev nD) (i : grid1.Coords) (arg1 : Memref sig .tc .vmem S1024x1024 .bf16) (harg1 : arg1.IsWhole) (arg2 : Memref sig .tc .vmem S2x1024x1024 .bf16) (harg2 : arg2.IsWhole) (arg3 : Memref sig .tc .vmem S1024x1024 .f32) (harg3 : arg3.IsWhole)
    (x0 : Vec F S1024x1024 .bf16) (x1 : Vec F S2x1024x1024 .bf16) (y : S1024x1024.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S1024x1024.size (by sl_kernel_rfl) y

/-- What the body leaves in the output buffer: the found pieces read back. -/
def out1_2 (c : Dev nD) (i : grid1.Coords) (arg1 : Memref sig .tc .vmem S1024x1024 .bf16) (harg1 : arg1.IsWhole) (arg2 : Memref sig .tc .vmem S2x1024x1024 .bf16) (harg2 : arg2.IsWhole) (arg3 : Memref sig .tc .vmem S1024x1024 .f32) (harg3 : arg3.IsWhole)
    (x0 : Vec F S1024x1024 .bf16) (x1 : Vec F S2x1024x1024 .bf16) : Vec F S1024x1024 .f32 :=
  VO1_2.read (Elt F) (VO1_2.writes (Elt F) VO1_2.junk (kernelRun1 c i arg1 harg1 arg2 harg2 arg3 harg3 x0 x1).1)

end Cert.KernelIdeal.Fr

end
-- ==== Proof.R1Defs.lean ====
/-
  Region 1 (the output pass) as proof data: after the body at a grid point the output buffer holds the product of the
  point's block of queries with the sum of the two halves' partial products.
-/
import proofs.«116467_j79113297592362_2_alg».proof.Proof.R1Conds

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output buffer at point `t`. -/
def outAt1 (c : Dev nD) (t : Fin cfg1.N) : Vec F S1024x1024 .f32 :=
  k1_pay1 (View.ld (iblk1 V c 1 t : Vec F S2x1024x1024 .bf16) r1_T0) (View.ld (iblk1 V c 1 t : Vec F S2x1024x1024 .bf16) r1_T1) (iblk1 V c 0 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Cert.KernelIdeal.Fr

end
-- ==== Proof.R1Body.lean ====
/-
  Region 1: what the found pieces read back as — the product of the queries' block with the sum of the two halves'
  partial products — and the body's obligation at every grid point.
-/
import proofs.«116467_j79113297592362_2_alg».proof.Proof.R1Run
import proofs.«116467_j79113297592362_2_alg».proof.Proof.R1Defs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2' : (![0, 0] : Fin 2 → Nat) = fun _ => 0 := by funext a; fin_cases a <;> rfl

theorem out1_2_eq (c : Dev nD) (i : grid1.Coords) (arg1 : Memref sig .tc .vmem S1024x1024 .bf16) (harg1 : arg1.IsWhole) (arg2 : Memref sig .tc .vmem S2x1024x1024 .bf16) (harg2 : arg2.IsWhole) (arg3 : Memref sig .tc .vmem S1024x1024 .f32) (harg3 : arg3.IsWhole)
    (x0 : Vec F S1024x1024 .bf16) (x1 : Vec F S2x1024x1024 .bf16) :
    out1_2 c i arg1 harg1 arg2 harg2 arg3 harg3 x0 x1 = k1_pay1 (View.ld x1 r1_T0) (View.ld x1 r1_T1) x0 := by
  unfold out1_2
  rw [View.read_writes_eq_canon _ _ _ (cover1_2 c i arg1 harg1 arg2 harg2 arg3 harg3 x0 x1)]
  unfold kernelRun1; dsimp only; sl_unfold_words
  rw [View.canon_unit_zero hz2']
  simp only [View.readAt_eq_ld, harg1.read_unread, harg2.read_unread, View.ld_unit_zero (S := S1024x1024) hz2']
  try rfl

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1
  iintro ⟨HΦ, Ho, ⟨%d0, H0⟩, ⟨%d1, H1⟩, ⟨%d2, H2⟩⟩
  iapply ((kernelRun1 c (grid1.coords t) (ms1_0 t) (hs1_0 t) (ms1_1 t) (hs1_1 t) (ms1_2 t) (hs1_2 t) (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro
  exact (View.read_writes_of_cover _ _ _ _ _ (cover1_2 c (grid1.coords t) (ms1_0 t) (hs1_0 t) (ms1_1 t) (hs1_1 t) (ms1_2 t) (hs1_2 t) (iblk1 V c 0 t) (iblk1 V c 1 t))).trans
    (out1_2_eq c (grid1.coords t) (ms1_0 t) (hs1_0 t) (ms1_1 t) (hs1_1 t) (ms1_2 t) (hs1_2 t) (iblk1 V c 0 t) (iblk1 V c 1 t))

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Run.lean ====
/-
  The whole run: @main as three segments — the host operations that prepare the operands, the projection pass, the
  output pass — over the buffer contents at each boundary, and what every unscoped buffer holds at the end: the
  arguments as launched, the result at what the output pass's write-backs leave.
-/
import proofs.«116467_j79113297592362_2_alg».proof.Proof.R0Body
import proofs.«116467_j79113297592362_2_alg».proof.Proof.R1Body
import proofs.«116467_j79113297592362_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Entering the projection pass: the launch contents after the host operations, read at the core's references. -/
abbrev Va : (c : Dev nD) → (b : Ref sig .tc) → Buf (Elt F) ((c : Thread nD τ).loc b) := fun c b => V1 m c b
/-- Leaving it: its arrays at what its write-backs leave, every other buffer as entered. -/
def Wb (c : Dev nD) : Valuation τ sig (Elt F) :=
  Pipeline.withArrays spec0 c (V1 m c) fun w => (dat0 (Va m) c).arrAt w cfg0.N
theorem Wb_arr (c : Dev nD) (w : Fin cfg0.W) :
    Wb m c (Proc.devRef .tc (Pipeline.arrRef spec0 w)) = (dat0 (Va m) c).arrAt w cfg0.N := by
  unfold Wb; exact Pipeline.withArrays_arr spec0 launch0.win.arr_inj c _ _ w
theorem Wb_of_ne (c : Dev nD) (b : Ref sig .tc) (hb : ∀ w, Pipeline.arrRef spec0 w ≠ b) :
    Wb m c (Proc.devRef .tc b) = V1 m c (Proc.devRef .tc b) := by
  unfold Wb; exact Pipeline.withArrays_of_ne spec0 c _ _ b hb
abbrev Vb : (c : Dev nD) → (b : Ref sig .tc) → Buf (Elt F) ((c : Thread nD τ).loc b) := fun c b => Wb m c b
theorem hF0 (c : Dev nD) (w : Fin cfg0.W) : (dat0 (Va m) c).arrAt w cfg0.N = Vb m c (Pipeline.arrRef spec0 w) :=
  (Wb_arr m c w).symm
theorem hrest0 (c : Dev nD) : ∀ b, b ∉ Finset.univ.image (Pipeline.arrRef spec0) → Vb m c b = Va m c b :=
  fun b hb => Wb_of_ne m c b fun w e => hb (Finset.mem_image.mpr ⟨w, Finset.mem_univ _, e⟩)

/-- Leaving the output pass: its arrays at what its write-backs leave, every other buffer as entered. -/
def Wc (c : Dev nD) : Valuation τ sig (Elt F) :=
  Pipeline.withArrays spec1 c (Wb m c) fun w => (dat1 (Vb m) c).arrAt w cfg1.N
theorem Wc_arr (c : Dev nD) (w : Fin cfg1.W) :
    Wc m c (Proc.devRef .tc (Pipeline.arrRef spec1 w)) = (dat1 (Vb m) c).arrAt w cfg1.N := by
  unfold Wc; exact Pipeline.withArrays_arr spec1 launch1.win.arr_inj c _ _ w
theorem Wc_of_ne (c : Dev nD) (b : Ref sig .tc) (hb : ∀ w, Pipeline.arrRef spec1 w ≠ b) :
    Wc m c (Proc.devRef .tc b) = Wb m c (Proc.devRef .tc b) := by
  unfold Wc; exact Pipeline.withArrays_of_ne spec1 c _ _ b hb
abbrev Vc : (c : Dev nD) → (b : Ref sig .tc) → Buf (Elt F) ((c : Thread nD τ).loc b) := fun c b => Wc m c b
theorem hF1 (c : Dev nD) (w : Fin cfg1.W) : (dat1 (Vb m) c).arrAt w cfg1.N = Vc m c (Pipeline.arrRef spec1 w) :=
  (Wc_arr m c w).symm
theorem hrest1 (c : Dev nD) : ∀ b, b ∉ Finset.univ.image (Pipeline.arrRef spec1) → Vc m c b = Vb m c b :=
  fun b hb => Wc_of_ne m c b fun w e => hb (Finset.mem_image.mpr ⟨w, Finset.mem_univ _, e⟩)

/-! ## The arguments end as launched; the result ends at the output pass's write-backs -/

theorem Wc_main_arg0 (c : Dev nD) : Wc m c (Proc.devRef .tc main_arg0) = m ((c : Thread nD τ).loc main_arg0) :=
  (Wc_of_ne m c main_arg0 (by decide)).trans <| ((Wb_arr m c 0).trans (((dat0 (Va m) c).arrAt_in 0 rfl _).trans (A_eq0 (Va m) c 0))).trans <| (V1_of m c main_arg0 (by decide)).trans rfl
theorem Wc_main_arg1 (c : Dev nD) : Wc m c (Proc.devRef .tc main_arg1) = m ((c : Thread nD τ).loc main_arg1) :=
  (Wc_of_ne m c main_arg1 (by decide)).trans <| (Wb_of_ne m c main_arg1 (by decide)).trans <| (V1_of m c main_arg1 (by decide)).trans rfl
theorem Wc_main_arg2 (c : Dev nD) : Wc m c (Proc.devRef .tc main_arg2) = m ((c : Thread nD τ).loc main_arg2) :=
  (Wc_of_ne m c main_arg2 (by decide)).trans <| (Wb_of_ne m c main_arg2 (by decide)).trans <| (V1_of m c main_arg2 (by decide)).trans rfl
theorem Wc_main_arg3 (c : Dev nD) : Wc m c (Proc.devRef .tc main_arg3) = m ((c : Thread nD τ).loc main_arg3) :=
  (Wc_of_ne m c main_arg3 (by decide)).trans <| (Wb_of_ne m c main_arg3 (by decide)).trans <| (V1_of m c main_arg3 (by decide)).trans rfl
theorem Wc_main_arg4 (c : Dev nD) : Wc m c (Proc.devRef .tc main_arg4) = m ((c : Thread nD τ).loc main_arg4) :=
  (Wc_of_ne m c main_arg4 (by decide)).trans <| (Wb_of_ne m c main_arg4 (by decide)).trans <| (V1_of m c main_arg4 (by decide)).trans rfl
theorem Wc_main_arg5 (c : Dev nD) : Wc m c (Proc.devRef .tc main_arg5) = m ((c : Thread nD τ).loc main_arg5) :=
  (Wc_of_ne m c main_arg5 (by decide)).trans <| (Wb_of_ne m c main_arg5 (by decide)).trans <| (V1_of m c main_arg5 (by decide)).trans rfl
theorem Wc_main_arg6 (c : Dev nD) : Wc m c (Proc.devRef .tc main_arg6) = m ((c : Thread nD τ).loc main_arg6) :=
  (Wc_of_ne m c main_arg6 (by decide)).trans <| (Wb_of_ne m c main_arg6 (by decide)).trans <| (V1_of m c main_arg6 (by decide)).trans rfl
theorem Wc_main_v7 (c : Dev nD) : Wc m c (Proc.devRef .tc main_v7) = (dat1 (Vb m) c).arrAt 2 cfg1.N := Wc_arr m c 2

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (Va m) c
  | ⟨1, _⟩ => fun c => dat1 (Vb m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wc m c) ∗ ∃ r, prngReg c r)

/-! ## The regions as segments -/

set_option backward.isDefEq.respectTransparency.types false in
/-- Region 0 over the thread state "every unscoped buffer at the boundary's contents, the generator register at some
    state, nothing owed": its arrays split out of the unscoped buffers at entry and put back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Wb m c) ∗ R c)
  X c := iprop(∃ r, prngReg c r)
  Y c := iprop(∃ r, prngReg c r)
  Z c := Pipeline.unscopedRest (Ix := Unit) (Name := ℕ) (U := UR sig nD τ) (Lvl := ℕ) spec0 c (Va m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Va m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Va m) c)
    unfold Pipeline.ΦA
    iintro ⟨Hp, -, Hr⟩
    isplitl [Hr]; · iexact Hr
    iexact Hp
  hout c := by
    refine BIBase.Entails.trans (hout0 (Va m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Va m c) (Vb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays split out of the unscoped buffers at entry and put back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m) c).loose
  hwaits := Pipeline.hwaits_of_owed_zero _ _ _ _ L lv 1 fun _ _ => rfl
  pre c := iprop(StableHlo.held (c : Thread nD τ) (Pipeline.ucRefs τ sig) (Wb m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vb m c) (Vc m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg0 m), .region (reg0 m), .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and in every
    final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wc m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc m c b)
    (hfin := fun c s' => by
      iintro ⟨⟨Hh, -⟩, HSI⟩
      unfold StableHlo.held
      imodintro
      iapply (pointsTo_read_all (Pipeline.ucRefs τ sig) (fun b => (((c : Thread nD τ)).1, b)) (Wc m c) s')
      isplitl [Hh] <;> iassumption)
    (hQ := fun s h c => h c)

/-- The same read at the arguments and the result. -/
theorem run_main : θ_run defs (onTc (τ := τ) (main (F := F))) ⟨m, fun _ => 0, ρ⟩ (fun r => ∀ c : Dev nD,
      r.2.mem ((c.tc : Thread nD τ).loc main_v7) = (dat1 (Vb m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v7 (by decide))).trans (Wc_main_v7 m c),
     (h c _ (mem_uc main_arg0 (by decide))).trans (Wc_main_arg0 m c),
     (h c _ (mem_uc main_arg1 (by decide))).trans (Wc_main_arg1 m c),
     (h c _ (mem_uc main_arg2 (by decide))).trans (Wc_main_arg2 m c),
     (h c _ (mem_uc main_arg3 (by decide))).trans (Wc_main_arg3 m c),
     (h c _ (mem_uc main_arg4 (by decide))).trans (Wc_main_arg4 m c),
     (h c _ (mem_uc main_arg5 (by decide))).trans (Wc_main_arg5 m c),
     (h c _ (mem_uc main_arg6 (by decide))).trans (Wc_main_arg6 m c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.KernelIdeal.Fr

end
-- ==== Proof.Spec.lean ====
/-
  The mathematics of the claim, stated once over plain index types and the extended reals, with no program in sight.

  A "linear attention without softmax": with q = x·Wqᵀ + bq, k = x·Wkᵀ + bk, v = x·Wvᵀ + bv (rows n < 8192, features < 1024),
  the reference computes  out[n,h] = ∑_m ((∑_j q[n,j]·k[m,j]) / √1024) · v[m,h],
  and the kernel computes out[n,h] = ∑_j q[n,j] · (T₀[j,h] + T₁[j,h]) where T_c = (∑ over the 16 row blocks of half c of kᵀv) · (1/32),
  each half's sum accumulated block by block from zero.  `outK` and `outR` below are these two functions.
-/
import Idealize.ShloMosaic.PureOps.Ideal
import Idealize.ShloMosaic.Lib.ValueIdx

noncomputable section

namespace Cert.Attn

open Idealize.ShloMosaic Idealize.ShloMosaic.ValueIdx

/-- An array of rank two (one) over the extended reals. -/
abbrev A2 (a b : Nat) : Type := (⟨2, ![a, b]⟩ : Shape).Idx → EReal
abbrev A1 (a : Nat) : Type := (⟨1, ![a]⟩ : Shape).Idx → EReal

/-- A linear layer in the `x · Wᵀ + b` convention: row `n`, output feature `j`. -/
def proj (x : A2 8192 1024) (W : A2 1024 1024) (b : A1 1024) (n : Fin 8192) (j : Fin 1024) : EReal :=
  (∑ d : Fin 1024, x (ix2 n d) * W (ix2 j d)) + b (ix1 j)

/-- Row `r` of the `t`-th block of 256 rows (`t` read modulo 32, so that the function is total). -/
def rowOf (t : ℕ) (r : Fin 256) : Fin 8192 := ⟨(t % 32) * 256 + r.val, by have := Nat.mod_lt t (show 0 < 32 by decide); omega⟩

/-- One row block's contribution to `kᵀ v`: the sum over the block's 256 rows of `k[row, j] · v[row, h]`. -/
def blockKV (k v : Fin 8192 → Fin 1024 → EReal) (t : ℕ) (j h : Fin 1024) : EReal :=
  ∑ r : Fin 256, k (rowOf t r) j * v (rowOf t r) h

/-- The accumulator of half `c` after its steps `0 … i`, exactly as it is built: from zero, one block added per step. -/
def accKV (k v : Fin 8192 → Fin 1024 → EReal) (c : ℕ) : ℕ → Fin 1024 → Fin 1024 → EReal
  | 0 => fun j h => 0 + blockKV k v (c * 16) j h
  | i + 1 => fun j h => accKV k v c i j h + blockKV k v (c * 16 + (i + 1)) j h

/-- Half `c`'s scaled partial product `T_c[j, h]`, the scale `s` a parameter (the kernel's literal 1/32). -/
def tPart (s : EReal) (k v : Fin 8192 → Fin 1024 → EReal) (c : ℕ) (j h : Fin 1024) : EReal :=
  accKV k v c 15 j h * s

/-- What the kernel computes: `∑_j q[n,j] · (T₀[j,h] + T₁[j,h])`. -/
def outK (s : EReal) (x : A2 8192 1024) (Wq : A2 1024 1024) (bq : A1 1024) (Wk : A2 1024 1024) (bk : A1 1024)
    (Wv : A2 1024 1024) (bv : A1 1024) (n : Fin 8192) (h : Fin 1024) : EReal :=
  ∑ j : Fin 1024, proj x Wq bq n j * (tPart s (proj x Wk bk) (proj x Wv bv) 0 j h + tPart s (proj x Wk bk) (proj x Wv bv) 1 j h)

/-- What the reference computes: `∑_m ((∑_j q[n,j] · k[m,j]) / d) · v[m,h]`, the divisor `d` a parameter (its √1024). -/
def outR (d : EReal) (x : A2 8192 1024) (Wq : A2 1024 1024) (bq : A1 1024) (Wk : A2 1024 1024) (bk : A1 1024)
    (Wv : A2 1024 1024) (bv : A1 1024) (n : Fin 8192) (h : Fin 1024) : EReal :=
  ∑ m : Fin 8192, Ideal.div (∑ j : Fin 1024, proj x Wq bq n j * proj x Wk bk m j) d * proj x Wv bv m h

/-- Every entry of an array is a real number. -/
def Fin2 {a b : Nat} (x : A2 a b) : Prop := ∀ i, ∃ r : ℝ, x i = (r : EReal)
def Fin1 {a : Nat} (x : A1 a) : Prop := ∀ i, ∃ r : ℝ, x i = (r : EReal)

end Cert.Attn

end
-- ==== Proof.Payloads.lean ====
/-
  The arithmetic of each kernel body, read at one index, at the ideal (extended-real) values.

  Narrowing and widening format changes are the identity on extended reals, a shape cast to the same shape is the
  identity, a cast that adds or drops a leading unit axis keeps the other coordinates, a [1,1024] row broadcast to
  [256,1024] reads the row's entry in the same column, and a matrix product into the zero splat is the plain sum, over
  the one contracted axis, of the operands' products. Three contraction patterns occur:
    x · Wᵀ      (axis 1 with axis 1):  out[r, j] = ∑_d lhs[r, d] · rhs[j, d]
    Kᵀ · V      (axis 0 with axis 0):  out[j, h] = ∑_r lhs[r, j] · rhs[r, h]
    Q · T       (axis 1 with axis 0):  out[n, h] = ∑_j lhs[n, j] · rhs[j, h]
-/
import proofs.«116467_j79113297592362_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx

/-! ## The operand indices of the three products, by coordinates -/

/-- x · Wᵀ: the left operand is read at (row, d). -/
theorem xWt_lhs (r : Fin 256) (j d : Fin 1024) :
    dot_S256x1024_S1024x1024_S256x1024_1_1_0_0_n_n.lhsIdx (ix2 r j) ((contrEquiv1 dot_S256x1024_S1024x1024_S256x1024_1_1_0_0_n_n 1024 rfl rfl).symm d) = ix2 r d :=
  funext fun a => Fin.ext (by
    match a with
    | ⟨0, _⟩ =>
      show (dot_S256x1024_S1024x1024_S256x1024_1_1_0_0_n_n.lhsIdx (ix2 r j) _ 0).val = r.val
      unfold DotDims.lhsIdx
      rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
      rfl
    | ⟨1, _⟩ => exact (dot_S256x1024_S1024x1024_S256x1024_1_1_0_0_n_n.lhsIdx_val_of_single rfl _ _).trans (contrEquiv1_symm_val dot_S256x1024_S1024x1024_S256x1024_1_1_0_0_n_n 1024 rfl rfl d))

/-- x · Wᵀ: the right operand is read at (output feature, d). -/
theorem xWt_rhs (r : Fin 256) (j d : Fin 1024) :
    dot_S256x1024_S1024x1024_S256x1024_1_1_0_0_n_n.rhsIdx (ix2 r j) ((contrEquiv1 dot_S256x1024_S1024x1024_S256x1024_1_1_0_0_n_n 1024 rfl rfl).symm d) = ix2 j d :=
  funext fun a => Fin.ext (by
    match a with
    | ⟨0, _⟩ =>
      show (dot_S256x1024_S1024x1024_S256x1024_1_1_0_0_n_n.rhsIdx (ix2 r j) _ 0).val = j.val
      unfold DotDims.rhsIdx
      rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
      rfl
    | ⟨1, _⟩ => exact (dot_S256x1024_S1024x1024_S256x1024_1_1_0_0_n_n.rhsIdx_val_of_single rfl _ _).trans (contrEquiv1_symm_val dot_S256x1024_S1024x1024_S256x1024_1_1_0_0_n_n 1024 rfl rfl d))

/-- Kᵀ · V: the left operand is read at (row, j). -/
theorem ktv_lhs (j h : Fin 1024) (r : Fin 256) :
    dot_S256x1024_S256x1024_S1024x1024_0_0_1_1_n_n.lhsIdx (ix2 j h) ((contrEquiv1 dot_S256x1024_S256x1024_S1024x1024_0_0_1_1_n_n 256 rfl rfl).symm r) = ix2 r j :=
  funext fun a => Fin.ext (by
    match a with
    | ⟨0, _⟩ => exact (dot_S256x1024_S256x1024_S1024x1024_0_0_1_1_n_n.lhsIdx_val_of_single rfl _ _).trans (contrEquiv1_symm_val dot_S256x1024_S256x1024_S1024x1024_0_0_1_1_n_n 256 rfl rfl r)
    | ⟨1, _⟩ =>
      show (dot_S256x1024_S256x1024_S1024x1024_0_0_1_1_n_n.lhsIdx (ix2 j h) _ 1).val = j.val
      unfold DotDims.lhsIdx
      rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
      rfl)

/-- Kᵀ · V: the right operand is read at (row, h). -/
theorem ktv_rhs (j h : Fin 1024) (r : Fin 256) :
    dot_S256x1024_S256x1024_S1024x1024_0_0_1_1_n_n.rhsIdx (ix2 j h) ((contrEquiv1 dot_S256x1024_S256x1024_S1024x1024_0_0_1_1_n_n 256 rfl rfl).symm r) = ix2 r h :=
  funext fun a => Fin.ext (by
    match a with
    | ⟨0, _⟩ => exact (dot_S256x1024_S256x1024_S1024x1024_0_0_1_1_n_n.rhsIdx_val_of_single rfl _ _).trans (contrEquiv1_symm_val dot_S256x1024_S256x1024_S1024x1024_0_0_1_1_n_n 256 rfl rfl r)
    | ⟨1, _⟩ =>
      show (dot_S256x1024_S256x1024_S1024x1024_0_0_1_1_n_n.rhsIdx (ix2 j h) _ 1).val = h.val
      unfold DotDims.rhsIdx
      rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
      rfl)

/-- Q · T: the left operand is read at (n, j). -/
theorem qT_lhs (n h j : Fin 1024) :
    dot_S1024x1024_S1024x1024_S1024x1024_1_0_0_1_n_n.lhsIdx (ix2 n h) ((contrEquiv1 dot_S1024x1024_S1024x1024_S1024x1024_1_0_0_1_n_n 1024 rfl rfl).symm j) = ix2 n j :=
  funext fun a => Fin.ext (by
    match a with
    | ⟨0, _⟩ =>
      show (dot_S1024x1024_S1024x1024_S1024x1024_1_0_0_1_n_n.lhsIdx (ix2 n h) _ 0).val = n.val
      unfold DotDims.lhsIdx
      rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
      rfl
    | ⟨1, _⟩ => exact (dot_S1024x1024_S1024x1024_S1024x1024_1_0_0_1_n_n.lhsIdx_val_of_single rfl _ _).trans (contrEquiv1_symm_val dot_S1024x1024_S1024x1024_S1024x1024_1_0_0_1_n_n 1024 rfl rfl j))

/-- Q · T: the right operand is read at (j, h). -/
theorem qT_rhs (n h j : Fin 1024) :
    dot_S1024x1024_S1024x1024_S1024x1024_1_0_0_1_n_n.rhsIdx (ix2 n h) ((contrEquiv1 dot_S1024x1024_S1024x1024_S1024x1024_1_0_0_1_n_n 1024 rfl rfl).symm j) = ix2 j h :=
  funext fun a => Fin.ext (by
    match a with
    | ⟨0, _⟩ => exact (dot_S1024x1024_S1024x1024_S1024x1024_1_0_0_1_n_n.rhsIdx_val_of_single rfl _ _).trans (contrEquiv1_symm_val dot_S1024x1024_S1024x1024_S1024x1024_1_0_0_1_n_n 1024 rfl rfl j)
    | ⟨1, _⟩ =>
      show (dot_S1024x1024_S1024x1024_S1024x1024_1_0_0_1_n_n.rhsIdx (ix2 n h) _ 1).val = h.val
      unfold DotDims.rhsIdx
      rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
      rfl)

/-! ## The three products into the zero splat, at an index -/

/-- x · Wᵀ at (r, j): the sum over the 1024 input features. -/
theorem mm_xWt_apply (l : FVec Ideal S256x1024 .bf16) (w : FVec Ideal S1024x1024 .bf16) (r : Fin 256) (j : Fin 1024) :
    matmul dot_S256x1024_S1024x1024_S256x1024_1_1_0_0_n_n none l w (constant (F := Ideal) S256x1024 .f32 0x00000000#32) (ix2 r j)
      = ∑ d : Fin 1024, l (ix2 r d) * w (ix2 j d) := by
  simp only [matmul]
  rw [Ideal.matmul_constant_zero_apply, ← Equiv.sum_comp (contrEquiv1 dot_S256x1024_S1024x1024_S256x1024_1_1_0_0_n_n 1024 rfl rfl).symm]
  refine Finset.sum_congr rfl fun d _ => ?_
  rw [xWt_lhs, xWt_rhs]

/-- Kᵀ · V at (j, h): the sum over the block's 256 rows. -/
theorem mm_ktv_apply (k v : FVec Ideal S256x1024 .bf16) (j h : Fin 1024) :
    matmul dot_S256x1024_S256x1024_S1024x1024_0_0_1_1_n_n none k v (constant (F := Ideal) S1024x1024 .f32 0x00000000#32) (ix2 j h)
      = ∑ r : Fin 256, k (ix2 r j) * v (ix2 r h) := by
  simp only [matmul]
  rw [Ideal.matmul_constant_zero_apply, ← Equiv.sum_comp (contrEquiv1 dot_S256x1024_S256x1024_S1024x1024_0_0_1_1_n_n 256 rfl rfl).symm]
  refine Finset.sum_congr rfl fun r _ => ?_
  rw [ktv_lhs, ktv_rhs]

/-- Q · T at (n, h): the sum over the 1024 features. -/
theorem mm_qT_apply (q t : FVec Ideal S1024x1024 .bf16) (n h : Fin 1024) :
    matmul dot_S1024x1024_S1024x1024_S1024x1024_1_0_0_1_n_n none q t (constant (F := Ideal) S1024x1024 .f32 0x00000000#32) (ix2 n h)
      = ∑ j : Fin 1024, q (ix2 n j) * t (ix2 j h) := by
  simp only [matmul]
  rw [Ideal.matmul_constant_zero_apply, ← Equiv.sum_comp (contrEquiv1 dot_S1024x1024_S1024x1024_S1024x1024_1_0_0_1_n_n 1024 rfl rfl).symm]
  refine Finset.sum_congr rfl fun j _ => ?_
  rw [qT_lhs, qT_rhs]

/-! ## The payloads -/

/-- The accumulator's initial value: the zero splat. -/
theorem pay3_apply (i : S1024x1024.Idx) : k0_pay3 (F := Ideal) i = 0 := by
  unfold k0_pay3
  rw [shapeCast_self]
  exact Ideal.ofBits_zero_f32

/-- One accumulation step: the old accumulator plus the block's product, entry by entry. -/
theorem pay1_apply (a : Vec Ideal S1024x1024 .f32) (b : FVec Ideal S1024x1024 .f32) (j h : Fin 1024) :
    k0_pay1 a b (ix2 j h) = a (ix2 j h) + b (ix2 j h) := by
  unfold k0_pay1
  rw [shapeCast_self]
  rfl

/-- The final scaling: every entry of the accumulator times the literal scale. -/
theorem pay2_apply (a : Vec Ideal S1024x1024 .f32) (j h : Fin 1024) :
    k0_pay2 a (ix3 (0 : Fin 1) j h) = a (ix2 j h) * Ideal.ofBits .f32 0x3D000000#32 := by
  unfold k0_pay2
  rw [shapeCast_ab_1ab_apply]
  rfl

/-- The literal scale is 1/32 = 2⁻⁵: exponent field 122, significand field 0. -/
theorem scale_eq : Ideal.ofBits .f32 0x3D000000#32 = ((1 / 32 : ℝ) : EReal) := by
  simp [Ideal.ofBits, Ideal.ieee]
  rw [← EReal.coe_mul]
  refine congrArg (fun x : ℝ => (x : EReal)) ?_
  norm_num

/-- A linear layer on one block of 256 rows: x · Wᵀ + b at (r, j). -/
theorem pay5_apply (x0 : Vec Ideal S256x1024 .f32) (w : Vec Ideal S1024x1024 .bf16) (b : Vec Ideal S1x1024 .f32)
    (r : Fin 256) (j : Fin 1024) :
    k0_pay5 x0 w b (ix2 r j) = (∑ d : Fin 1024, x0 (ix2 r d) * w (ix2 j d)) + b (ix2 (0 : Fin 1) j) := by
  unfold k0_pay5 k0_pay4
  dsimp only
  rw [shapeCast_self, shapeCast_self]
  simp only [truncf_apply, addf_apply]
  rw [mm_xWt_apply, broadcastTo_1b_ab_apply]
  rfl

/-- The block's product is the product of its two linear layers' outputs. -/
theorem pay6_eq (x0 : Vec Ideal S256x1024 .f32) (wk : Vec Ideal S1024x1024 .bf16) (bk : Vec Ideal S1x1024 .f32)
    (wv : Vec Ideal S1024x1024 .bf16) (bv : Vec Ideal S1x1024 .f32) :
    k0_pay6 x0 wk bk wv bv
      = matmul dot_S256x1024_S256x1024_S1024x1024_0_0_1_1_n_n none (k0_pay5 x0 wk bk) (k0_pay5 x0 wv bv) (constant (F := Ideal) S1024x1024 .f32 0x00000000#32) := rfl

/-- One block's contribution to kᵀ v at (j, h): the sum over the block's rows of k[row, j] · v[row, h]. -/
theorem pay6_apply (x0 : Vec Ideal S256x1024 .f32) (wk : Vec Ideal S1024x1024 .bf16) (bk : Vec Ideal S1x1024 .f32)
    (wv : Vec Ideal S1024x1024 .bf16) (bv : Vec Ideal S1x1024 .f32) (j h : Fin 1024) :
    k0_pay6 x0 wk bk wv bv (ix2 j h)
      = ∑ r : Fin 256, ((∑ d : Fin 1024, x0 (ix2 r d) * wk (ix2 j d)) + bk (ix2 (0 : Fin 1) j))
          * ((∑ d : Fin 1024, x0 (ix2 r d) * wv (ix2 h d)) + bv (ix2 (0 : Fin 1) h)) := by
  rw [pay6_eq, mm_ktv_apply]
  refine Finset.sum_congr rfl fun r _ => ?_
  rw [pay5_apply, pay5_apply]

/-- The output block: q times the sum of the two halves' scaled partial products, at (n, h). -/
theorem k1_pay1_apply (t0 t1 : Vec Ideal S1x1024x1024 .bf16) (q : Vec Ideal S1024x1024 .bf16) (n h : Fin 1024) :
    k1_pay1 t0 t1 q (ix2 n h) = ∑ j : Fin 1024, q (ix2 n j) * (t0 (ix3 (0 : Fin 1) j h) + t1 (ix3 (0 : Fin 1) j h)) := by
  unfold k1_pay1
  rw [shapeCast_self, mm_qT_apply]
  refine Finset.sum_congr rfl fun j _ => ?_
  simp only [truncf_apply, addf_apply, extf_apply]
  rw [shapeCast_1ab_ab_apply, shapeCast_1ab_ab_apply]

end Cert.KernelIdeal.Pay

end
-- ==== Proof.Values0.lean ====
/-
  The projection pass's two output arrays as whole-array functions of the arrays it reads, at the ideal values.

  The pass walks the 8192 rows of x in 32 blocks of 256 rows, 2 halves of 16 steps.  At step t it reads rows
  t·256 … t·256+255 of x and the whole of the three weight matrices and of the three bias rows; it writes the projected
  queries of those rows to rows t·256 … t·256+255 of the first output, adds the block's kᵀv to an accumulator that the
  first step of a half starts from zero, and at the last step of a half writes the accumulator, scaled, to slab t/16 of
  the second output.  So the first output is the query projection at every row, the accumulator after step n is the
  specification's running sum for half n/16 after n%16 + 1 blocks, and slab c of the second output is half c's scaled
  sum of sixteen blocks.
-/
import proofs.«116467_j79113297592362_2_alg».proof.Proof.R0Defs
import proofs.«116467_j79113297592362_2_alg».proof.Proof.Spec
import proofs.«116467_j79113297592362_2_alg».proof.Proof.Payloads
import Idealize.ShloMosaic.Lib.Pipeline.Value
import Idealize.ShloMosaic.Lib.ValueIdx

noncomputable section

namespace Cert.KernelIdeal.Val0

open Cert.KernelIdeal Cert.KernelIdeal.Gen Cert.KernelIdeal.Fr Cert.KernelIdeal.Pay Cert.Attn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The projection with the bias as a [1,1024] row -/

/-- A linear layer x · Wᵀ + b whose bias is stored as a one-row matrix: row n, output feature j. -/
def projK (x : A2 8192 1024) (W : A2 1024 1024) (b2 : A2 1 1024) (n : Fin 8192) (j : Fin 1024) : EReal :=
  (∑ d : Fin 1024, x (ix2 n d) * W (ix2 j d)) + b2 (ix2 0 j)

/-- The keys and the values of every row, from the arrays the pass reads. -/
abbrev kOf (c : Dev nD) : Fin 8192 → Fin 1024 → EReal :=
  projK (V c main_arg0 : A2 8192 1024) (V c main_v1 : A2 1024 1024) (V c main_v4 : A2 1 1024)
abbrev vOf (c : Dev nD) : Fin 8192 → Fin 1024 → EReal :=
  projK (V c main_arg0 : A2 8192 1024) (V c main_v2 : A2 1024 1024) (V c main_v5 : A2 1 1024)
abbrev qOf (c : Dev nD) : Fin 8192 → Fin 1024 → EReal :=
  projK (V c main_arg0 : A2 8192 1024) (V c main_v0 : A2 1024 1024) (V c main_v3 : A2 1 1024)

/-! ## The printed index maps, decided once over the 32 points -/

/-- The row-block windows (the input rows, the projected queries) sit at block (t, 0); the weight and bias windows are
    their whole arrays; the partial-product window sits at slab t / 16. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 3) = t.val / 16 ∧ win0_8.index t (1 : Fin 3) = 0 ∧ win0_8.index t (2 : Fin 3) = 0 :=
  (by decide +kernel : ∀ t : Fin grid0.N, _)

/-! ## The input blocks, read at an index -/

/-- The block of x at step t is rows t·256 … t·256+255 of x. -/
theorem blk_x (c : Dev nD) (t : Fin cfg0.N) (r : Fin 256) (d : Fin 1024) :
    (iblk0 V c 0 t : Vec Ideal S256x1024 .f32) (ix2 r d) = (V c main_arg0 : A2 8192 1024) (ix2 (rowOf t.val r) d) := by
  have hN : cfg0.N = 32 := N_0
  have ht := t.isLt
  obtain ⟨x00, x01, q0, q1, k0, k1, v0, v1, bq0, bq1, bk0, bk1, bv0, bv1, o0, o1, p0, p1, p2⟩ := idx_facts t
  unfold iblk0
  rw [View.read_apply]
  show V c main_arg0 _ = V c main_arg0 _
  congr 1
  funext a
  apply Fin.ext
  match a with
  | ⟨0, _⟩ => show win0_0.index t (0 : Fin 2) * 256 + 1 * r.val = (t.val % 32) * 256 + r.val; omega
  | ⟨1, _⟩ => show win0_0.index t (1 : Fin 2) * 1024 + 1 * d.val = d.val; omega

/-- The query weights' block is the whole matrix. -/
theorem blk_wq (c : Dev nD) (t : Fin cfg0.N) (j d : Fin 1024) :
    (iblk0 V c 1 t : Vec Ideal S1024x1024 .bf16) (ix2 j d) = (V c main_v0 : A2 1024 1024) (ix2 j d) := by
  obtain ⟨x00, x01, q0, q1, k0, k1, v0, v1, bq0, bq1, bk0, bk1, bv0, bv1, o0, o1, p0, p1, p2⟩ := idx_facts t
  unfold iblk0
  rw [View.read_apply]
  show V c main_v0 _ = V c main_v0 _
  congr 1
  funext a
  apply Fin.ext
  match a with
  | ⟨0, _⟩ => show win0_1.index t (0 : Fin 2) * 1024 + 1 * j.val = j.val; omega
  | ⟨1, _⟩ => show win0_1.index t (1 : Fin 2) * 1024 + 1 * d.val = d.val; omega

/-- The key weights' block is the whole matrix. -/
theorem blk_wk (c : Dev nD) (t : Fin cfg0.N) (j d : Fin 1024) :
    (iblk0 V c 2 t : Vec Ideal S1024x1024 .bf16) (ix2 j d) = (V c main_v1 : A2 1024 1024) (ix2 j d) := by
  obtain ⟨x00, x01, q0, q1, k0, k1, v0, v1, bq0, bq1, bk0, bk1, bv0, bv1, o0, o1, p0, p1, p2⟩ := idx_facts t
  unfold iblk0
  rw [View.read_apply]
  show V c main_v1 _ = V c main_v1 _
  congr 1
  funext a
  apply Fin.ext
  match a with
  | ⟨0, _⟩ => show win0_2.index t (0 : Fin 2) * 1024 + 1 * j.val = j.val; omega
  | ⟨1, _⟩ => show win0_2.index t (1 : Fin 2) * 1024 + 1 * d.val = d.val; omega

/-- The value weights' block is the whole matrix. -/
theorem blk_wv (c : Dev nD) (t : Fin cfg0.N) (j d : Fin 1024) :
    (iblk0 V c 3 t : Vec Ideal S1024x1024 .bf16) (ix2 j d) = (V c main_v2 : A2 1024 1024) (ix2 j d) := by
  obtain ⟨x00, x01, q0, q1, k0, k1, v0, v1, bq0, bq1, bk0, bk1, bv0, bv1, o0, o1, p0, p1, p2⟩ := idx_facts t
  unfold iblk0
  rw [View.read_apply]
  show V c main_v2 _ = V c main_v2 _
  congr 1
  funext a
  apply Fin.ext
  match a with
  | ⟨0, _⟩ => show win0_3.index t (0 : Fin 2) * 1024 + 1 * j.val = j.val; omega
  | ⟨1, _⟩ => show win0_3.index t (1 : Fin 2) * 1024 + 1 * d.val = d.val; omega

/-- The query bias's block is the whole row. -/
theorem blk_bq (c : Dev nD) (t : Fin cfg0.N) (j : Fin 1024) :
    (iblk0 V c 4 t : Vec Ideal S1x1024 .f32) (ix2 0 j) = (V c main_v3 : A2 1 1024) (ix2 0 j) := by
  obtain ⟨x00, x01, q0, q1, k0, k1, v0, v1, bq0, bq1, bk0, bk1, bv0, bv1, o0, o1, p0, p1, p2⟩ := idx_facts t
  unfold iblk0
  rw [View.read_apply]
  show V c main_v3 _ = V c main_v3 _
  congr 1
  funext a
  apply Fin.ext
  match a with
  | ⟨0, _⟩ => show win0_4.index t (0 : Fin 2) * 1 + 1 * 0 = 0; omega
  | ⟨1, _⟩ => show win0_4.index t (1 : Fin 2) * 1024 + 1 * j.val = j.val; omega

/-- The key bias's block is the whole row. -/
theorem blk_bk (c : Dev nD) (t : Fin cfg0.N) (j : Fin 1024) :
    (iblk0 V c 5 t : Vec Ideal S1x1024 .f32) (ix2 0 j) = (V c main_v4 : A2 1 1024) (ix2 0 j) := by
  obtain ⟨x00, x01, q0, q1, k0, k1, v0, v1, bq0, bq1, bk0, bk1, bv0, bv1, o0, o1, p0, p1, p2⟩ := idx_facts t
  unfold iblk0
  rw [View.read_apply]
  show V c main_v4 _ = V c main_v4 _
  congr 1
  funext a
  apply Fin.ext
  match a with
  | ⟨0, _⟩ => show win0_5.index t (0 : Fin 2) * 1 + 1 * 0 = 0; omega
  | ⟨1, _⟩ => show win0_5.index t (1 : Fin 2) * 1024 + 1 * j.val = j.val; omega

/-- The value bias's block is the whole row. -/
theorem blk_bv (c : Dev nD) (t : Fin cfg0.N) (j : Fin 1024) :
    (iblk0 V c 6 t : Vec Ideal S1x1024 .f32) (ix2 0 j) = (V c main_v5 : A2 1 1024) (ix2 0 j) := by
  obtain ⟨x00, x01, q0, q1, k0, k1, v0, v1, bq0, bq1, bk0, bk1, bv0, bv1, o0, o1, p0, p1, p2⟩ := idx_facts t
  unfold iblk0
  rw [View.read_apply]
  show V c main_v5 _ = V c main_v5 _
  congr 1
  funext a
  apply Fin.ext
  match a with
  | ⟨0, _⟩ => show win0_6.index t (0 : Fin 2) * 1 + 1 * 0 = 0; omega
  | ⟨1, _⟩ => show win0_6.index t (1 : Fin 2) * 1024 + 1 * j.val = j.val; omega

/-! ## One step's kᵀv, and the accumulator -/

/-- A block's kᵀv from blocks that are rows of x and the whole weights and biases: the specification's block term. -/
theorem pay6_rows (X : A2 8192 1024) (Wk Wv : A2 1024 1024) (bk2 bv2 : A2 1 1024) (t : ℕ)
    (x0 : Vec Ideal S256x1024 .f32) (wk : Vec Ideal S1024x1024 .bf16) (bk : Vec Ideal S1x1024 .f32)
    (wv : Vec Ideal S1024x1024 .bf16) (bv : Vec Ideal S1x1024 .f32)
    (hx : ∀ (r : Fin 256) (d : Fin 1024), x0 (ix2 r d) = X (ix2 (rowOf t r) d))
    (hwk : ∀ j d : Fin 1024, wk (ix2 j d) = Wk (ix2 j d)) (hbk : ∀ j : Fin 1024, bk (ix2 0 j) = bk2 (ix2 0 j))
    (hwv : ∀ j d : Fin 1024, wv (ix2 j d) = Wv (ix2 j d)) (hbv : ∀ j : Fin 1024, bv (ix2 0 j) = bv2 (ix2 0 j))
    (j h : Fin 1024) :
    k0_pay6 x0 wk bk wv bv (ix2 j h) = blockKV (projK X Wk bk2) (projK X Wv bv2) t j h := by
  refine (pay6_apply x0 wk bk wv bv j h).trans ?_
  unfold blockKV projK
  refine Finset.sum_congr rfl fun r _ => ?_
  rw [hbk, hbv]
  simp only [hx, hwk, hwv]

/-- Step t's kᵀv is the specification's block term of block t. -/
theorem pay6_at (c : Dev nD) (t : Fin cfg0.N) (j h : Fin 1024) :
    k0_pay6 (iblk0 V c 0 t) (iblk0 V c 2 t) (iblk0 V c 5 t) (iblk0 V c 3 t) (iblk0 V c 6 t) (ix2 j h)
      = blockKV (kOf V c) (vOf V c) t.val j h :=
  pay6_rows (V c main_arg0) (V c main_v1) (V c main_v2) (V c main_v4) (V c main_v5) t.val
    (iblk0 V c 0 t) (iblk0 V c 2 t) (iblk0 V c 5 t) (iblk0 V c 3 t) (iblk0 V c 6 t)
    (blk_x V c t) (blk_wk V c t) (blk_bk V c t) (blk_wv V c t) (blk_bv V c t) j h

/-- The first step of a half leaves zero plus its block term. -/
theorem acc_first (c : Dev nD) (t : Fin cfg0.N) (h0 : t.val % 16 = 0) (j h : Fin 1024) :
    accAt V c t.val t.isLt (ix2 j h) = 0 + blockKV (kOf V c) (vOf V c) t.val j h := by
  rw [accAt_first V c t h0]
  refine (pay1_apply (k0_pay3 (F := Ideal)) (k0_pay6 (iblk0 V c 0 t) (iblk0 V c 2 t) (iblk0 V c 5 t) (iblk0 V c 3 t) (iblk0 V c 6 t)) j h).trans ?_
  exact congrArg₂ (· + ·) (pay3_apply (ix2 j h)) (pay6_at V c t j h)

/-- A later step leaves what the step before left plus its block term. -/
theorem acc_later (c : Dev nD) (t : Fin cfg0.N) (h0 : ¬t.val % 16 = 0) (j h : Fin 1024) :
    accAt V c t.val t.isLt (ix2 j h)
      = accAt V c (t.val - 1) (Nat.lt_of_le_of_lt (Nat.sub_le _ _) t.isLt) (ix2 j h) + blockKV (kOf V c) (vOf V c) t.val j h := by
  rw [accAt_later V c t h0]
  refine (pay1_apply (accAt V c (t.val - 1) (Nat.lt_of_le_of_lt (Nat.sub_le _ _) t.isLt)) (k0_pay6 (iblk0 V c 0 t) (iblk0 V c 2 t) (iblk0 V c 5 t) (iblk0 V c 3 t) (iblk0 V c 6 t)) j h).trans ?_
  exact congrArg (_ + ·) (pay6_at V c t j h)

/-- The specification's running sum at a position that starts a half. -/
theorem accKV_first (k v : Fin 8192 → Fin 1024 → EReal) (n : ℕ) (h0 : n % 16 = 0) (j h : Fin 1024) :
    accKV k v (n / 16) (n % 16) j h = 0 + blockKV k v n j h := by
  rw [h0]
  show 0 + blockKV k v (n / 16 * 16) j h = _
  rw [show n / 16 * 16 = n by omega]

/-- The specification's running sum at a later position of a half. -/
theorem accKV_later (k v : Fin 8192 → Fin 1024 → EReal) (n : ℕ) (h0 : ¬(n + 1) % 16 = 0) (j h : Fin 1024) :
    accKV k v ((n + 1) / 16) ((n + 1) % 16) j h = accKV k v (n / 16) (n % 16) j h + blockKV k v (n + 1) j h := by
  obtain ⟨i, hi⟩ : ∃ i, (n + 1) % 16 = i + 1 := ⟨(n + 1) % 16 - 1, by omega⟩
  rw [hi, show n / 16 = (n + 1) / 16 by omega, show n % 16 = i by omega]
  show accKV k v ((n + 1) / 16) i j h + blockKV k v ((n + 1) / 16 * 16 + (i + 1)) j h = _
  rw [show (n + 1) / 16 * 16 + (i + 1) = n + 1 by omega]

/-- THE ACCUMULATOR after position n is the specification's running sum of half n / 16 after its steps 0 … n % 16. -/
theorem acc_eq (c : Dev nD) (n : ℕ) (hn : n < cfg0.N) (j h : Fin 1024) :
    accAt V c n hn (ix2 j h) = accKV (kOf V c) (vOf V c) (n / 16) (n % 16) j h := by
  induction n generalizing j h with
  | zero =>
    rw [accKV_first _ _ 0 rfl]
    exact acc_first V c ⟨0, hn⟩ rfl j h
  | succ n ih =>
    by_cases h0 : (n + 1) % 16 = 0
    · rw [accKV_first _ _ (n + 1) h0]
      exact acc_first V c ⟨n + 1, hn⟩ h0 j h
    · rw [accKV_later _ _ n h0]
      refine (acc_later V c ⟨n + 1, hn⟩ h0 j h).trans ?_
      show accAt V c n _ (ix2 j h) + _ = _
      rw [ih]

/-! ## The first output: the projected queries of every row -/

/-- A block's query projection from blocks that are rows of x and the whole weights and bias. -/
theorem pay5_rows (X : A2 8192 1024) (Wq : A2 1024 1024) (bq2 : A2 1 1024) (t : ℕ)
    (x0 : Vec Ideal S256x1024 .f32) (wq : Vec Ideal S1024x1024 .bf16) (bq : Vec Ideal S1x1024 .f32)
    (hx : ∀ (r : Fin 256) (d : Fin 1024), x0 (ix2 r d) = X (ix2 (rowOf t r) d))
    (hwq : ∀ j d : Fin 1024, wq (ix2 j d) = Wq (ix2 j d)) (hbq : ∀ j : Fin 1024, bq (ix2 0 j) = bq2 (ix2 0 j))
    (r : Fin 256) (j : Fin 1024) :
    k0_pay5 x0 wq bq (ix2 r j) = projK X Wq bq2 (rowOf t r) j := by
  refine (pay5_apply x0 wq bq r j).trans ?_
  unfold projK
  rw [hbq]
  simp only [hx, hwq]

/-- What step t stores for the first output is the query projection of rows t·256 … t·256+255. -/
theorem q_at (c : Dev nD) (t : Fin cfg0.N) (r : Fin 256) (j : Fin 1024) :
    qAt V c t (ix2 r j) = qOf V c (rowOf t.val r) j := by
  unfold qAt
  exact pay5_rows (V c main_arg0) (V c main_v0) (V c main_v3) t.val (iblk0 V c 0 t) (iblk0 V c 1 t) (iblk0 V c 4 t)
    (blk_x V c t) (blk_wq V c t) (blk_bq V c t) r j

/-- The first output as one function of the arrays read: the query projection, row by row. -/
abbrev outQ (c : Dev nD) : S8192x1024.Idx → Elt Ideal .bf16 := fun i => qOf V c (i 0) (i 1)

/-- Element (r, j) of step t's block of the first output is element (t·256 + r, j) of the array. -/
theorem emb7 (t : Fin cfg0.N) (r : Fin 256) (j : Fin 1024) :
    ((cfg0.win 7).blk t).view.emb (ix2 r j) = (ix2 (rowOf t.val r) j : S8192x1024.Idx) := by
  have hN : cfg0.N = 32 := N_0
  have ht := t.isLt
  obtain ⟨x00, x01, q0, q1, k0, k1, v0, v1, bq0, bq1, bk0, bk1, bv0, bv1, o0, o1, p0, p1, p2⟩ := idx_facts t
  funext a
  apply Fin.ext
  match a with
  | ⟨0, _⟩ => show win0_7.index t (0 : Fin 2) * 256 + 1 * r.val = (t.val % 32) * 256 + r.val; omega
  | ⟨1, _⟩ => show win0_7.index t (1 : Fin 2) * 1024 + 1 * j.val = j.val; omega

/-- What step t writes back to the first output is its block of the query projection. -/
theorem flushed7_eq (c : Dev nD) (t : Fin cfg0.N) :
    (dat0 V c).flushed 7 t = ((cfg0.win 7).blk t).view.read (Elt Ideal) (outQ V c) := by
  show (cfg0.win 7).cut (grid0.coords t) ((dat0 V c).after 7 t) = _
  rw [after0_7]
  funext y
  obtain ⟨r, j, rfl⟩ : ∃ (r : Fin 256) (j : Fin 1024), y = ix2 r j := ⟨y 0, y 1, eq_ix2 y⟩
  show qAt V c t (ix2 r j) = outQ V c (((cfg0.win 7).blk t).view.emb (ix2 r j))
  rw [emb7 t r j]
  exact q_at V c t r j

/-- An index of the first output is in step t's block iff each coordinate is in the block's range on its axis. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_0).slice (win0_7.rect t)).set ↔ _
  rw [View.set_slice_whole, Rect.mem_set_unit]
  exact Iff.rfl

/-- Row n of the first output is written by step n / 256. -/
theorem cover7 (i : S8192x1024.Idx) :
    ∃ t : Fin cfg0.N, (cfg0.win 7).flush t = true ∧ i ∈ ((cfg0.win 7).blk t).view.set := by
  have hN : cfg0.N = 32 := N_0
  have hi0 : (i 0).val < 8192 := (i 0).isLt
  have hi1 : (i 1).val < 1024 := (i 1).isLt
  obtain ⟨t, ht⟩ : ∃ t : Fin cfg0.N, t.val = (i 0).val / 256 := ⟨⟨(i 0).val / 256, by omega⟩, rfl⟩
  refine ⟨t, flush0_7 t, ?_⟩
  rw [mem_blk7]
  obtain ⟨x00, x01, q0, q1, k0, k1, v0, v1, bq0, bq1, bk0, bk1, bv0, bv1, o0, o1, p0, p1, p2⟩ := idx_facts t
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- The first output after the pass, as a whole array: the steps' blocks tile it. -/
theorem arr7_eq (c : Dev nD) : (dat0 V c).arrAt 7 cfg0.N = outQ V c :=
  (dat0 V c).arrAt_eq_of_cover 7 (outQ V c) (fun t _ => flushed7_eq V c t) cover7

/-- THE FIRST OUTPUT after the pass: the query projection at every row and feature. -/
theorem arr7 (c : Dev nD) (n : Fin 8192) (j : Fin 1024) :
    ((dat0 V c).arrAt 7 cfg0.N : S8192x1024.Idx → EReal) (ix2 n j) = qOf V c n j :=
  congrFun (arr7_eq V c) (ix2 n j)

/-! ## The second output: each half's scaled partial product -/

/-- The second output as one function of the arrays read: slab c is half c's scaled sum of sixteen block terms. -/
abbrev outT (c : Dev nD) : S2x1024x1024.Idx → Elt Ideal .bf16 :=
  fun i => tPart (Ideal.ofBits .f32 0x3D000000#32) (kOf V c) (vOf V c) (i 0).val (i 1) (i 2)

/-- Element (0, j, h) of step t's block of the second output is element (t / 16, j, h) of the array. -/
theorem emb8 (t : Fin cfg0.N) (j h : Fin 1024) (hc : t.val / 16 < 2) :
    ((cfg0.win 8).blk t).view.emb (ix3 0 j h) = (ix3 ⟨t.val / 16, hc⟩ j h : S2x1024x1024.Idx) := by
  obtain ⟨x00, x01, q0, q1, k0, k1, v0, v1, bq0, bq1, bk0, bk1, bv0, bv1, o0, o1, p0, p1, p2⟩ := idx_facts t
  funext a
  apply Fin.ext
  match a with
  | ⟨0, _⟩ => show win0_8.index t (0 : Fin 3) * 1 + 1 * 0 = t.val / 16; omega
  | ⟨1, _⟩ => show win0_8.index t (1 : Fin 3) * 1024 + 1 * j.val = j.val; omega
  | ⟨2, _⟩ => show win0_8.index t (2 : Fin 3) * 1024 + 1 * h.val = h.val; omega

/-- What the last step of a half writes back to the second output is its slab of the scaled sums. -/
theorem flushed8_eq (c : Dev nD) (t : Fin cfg0.N) (hf : (cfg0.win 8).flush t = true) :
    (dat0 V c).flushed 8 t = ((cfg0.win 8).blk t).view.read (Elt Ideal) (outT V c) := by
  have hN : cfg0.N = 32 := N_0
  have ht := t.isLt
  have h15 : t.val % 16 = 15 := (flush0_8 t).mp hf
  have hc : t.val / 16 < 2 := by omega
  show (cfg0.win 8).cut (grid0.coords t) ((dat0 V c).after 8 t) = _
  rw [after0_8]
  funext y
  obtain ⟨z, j, h, rfl⟩ : ∃ (z : Fin 1) (j h : Fin 1024), y = ix3 z j h := ⟨y 0, y 1, y 2, eq_ix3 y⟩
  obtain rfl : z = 0 := Subsingleton.elim _ _
  show tAt V c t (ix3 0 j h) = outT V c (((cfg0.win 8).blk t).view.emb (ix3 0 j h))
  rw [emb8 t j h hc]
  show tAt V c t (ix3 0 j h) = tPart (Ideal.ofBits .f32 0x3D000000#32) (kOf V c) (vOf V c) (t.val / 16) j h
  unfold tAt tPart
  refine (pay2_apply (accAt V c t.val t.isLt) j h).trans ?_
  rw [acc_eq V c t.val t.isLt j h, h15]

/-- An index of the second output is in step t's block iff each coordinate is in the block's range on its axis. -/
theorem mem_blk8 (t : Fin cfg0.N) (i : S2x1024x1024.Idx) :
    i ∈ ((cfg0.win 8).blk t).view.set ↔ ∀ a : Fin 3, win0_8.index t a * S1x1024x1024.size a ≤ (i a).val ∧ (i a).val < win0_8.index t a * S1x1024x1024.size a + S1x1024x1024.size a := by
  show i ∈ ((View.whole main_v6_1).slice (win0_8.rect t)).set ↔ _
  rw [View.set_slice_whole, Rect.mem_set_unit]
  exact Iff.rfl

/-- Slab c of the second output is written by the last step of half c, step c·16 + 15. -/
theorem cover8 (i : S2x1024x1024.Idx) :
    ∃ t : Fin cfg0.N, (cfg0.win 8).flush t = true ∧ i ∈ ((cfg0.win 8).blk t).view.set := by
  have hN : cfg0.N = 32 := N_0
  have hi0 : (i 0).val < 2 := (i 0).isLt
  have hi1 : (i 1).val < 1024 := (i 1).isLt
  have hi2 : (i 2).val < 1024 := (i 2).isLt
  obtain ⟨t, ht⟩ : ∃ t : Fin cfg0.N, t.val = (i 0).val * 16 + 15 := ⟨⟨(i 0).val * 16 + 15, by omega⟩, rfl⟩
  refine ⟨t, (flush0_8 t).mpr (by omega), ?_⟩
  rw [mem_blk8]
  obtain ⟨x00, x01, q0, q1, k0, k1, v0, v1, bq0, bq1, bk0, bk1, bv0, bv1, o0, o1, p0, p1, p2⟩ := idx_facts t
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 1024 ≤ (i 2).val ∧ (i 2).val < win0_8.index t (2 : Fin 3) * 1024 + 1024; omega

/-- The second output after the pass, as a whole array: the two halves' last steps write its two slabs. -/
theorem arr8_eq (c : Dev nD) : (dat0 V c).arrAt 8 cfg0.N = outT V c :=
  (dat0 V c).arrAt_eq_of_cover 8 (outT V c) (flushed8_eq V c) cover8

/-- THE SECOND OUTPUT after the pass: slab c holds half c's scaled partial product. -/
theorem arr8 (c : Dev nD) (cc : Fin 2) (j h : Fin 1024) :
    ((dat0 V c).arrAt 8 cfg0.N : S2x1024x1024.Idx → EReal) (ix3 cc j h)
      = tPart (Ideal.ofBits .f32 0x3D000000#32) (kOf V c) (vOf V c) cc.val j h :=
  congrFun (arr8_eq V c) (ix3 cc j h)

end Cert.KernelIdeal.Val0

end
-- ==== Proof.Values1.lean ====
/-
  Region 1 (the output pass), read as a whole array: row `n`, column `h` of the array the region writes is
  `∑_j Q[n,j] · (T[0,j,h] + T[1,j,h])`, where `Q` (the queries, 8192 × 1024) and `T` (the two halves' scaled partial
  products, 2 × 1024 × 1024) are the two arrays the region reads, as it finds them.

  Point `t` of the grid (8 points) reads rows `1024 t … 1024 t + 1023` of `Q` and the whole of `T`, and writes rows
  `1024 t … 1024 t + 1023` of the output; every point writes its block back, and the eight blocks tile the array.
-/
import proofs.«116467_j79113297592362_2_alg».proof.Proof.R1Defs
import proofs.«116467_j79113297592362_2_alg».proof.Proof.Payloads
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

/-! ## The function -/

/-- Row `n`, column `h` of the product of the queries with the sum of the two halves' partial products. -/
def outFn (Q : Vec Ideal S8192x1024 .bf16) (T : Vec Ideal S2x1024x1024 .bf16) (n : Fin 8192) (h : Fin 1024) : Ideal .f32 :=
  ∑ j : Fin 1024, Q (ix2 n j) * (T (ix3 (0 : Fin 2) j h) + T (ix3 (1 : Fin 2) j h))

/-- The same as an array over the output's index type. -/
abbrev outArr (Q : Vec Ideal S8192x1024 .bf16) (T : Vec Ideal S2x1024x1024 .bf16) : Vec Ideal S8192x1024 .f32 :=
  fun i => outFn Q T (i 0) (i 1)

theorem outArr_ix2 (Q : Vec Ideal S8192x1024 .bf16) (T : Vec Ideal S2x1024x1024 .bf16) (n : Fin 8192) (h : Fin 1024) :
    outArr Q T (ix2 n h) = outFn Q T n h := rfl

/-- Two arrays over a 1024 × 1024 block agree when they agree at every pair of coordinates. -/
theorem ext_ix2 {α : Type} (f g : S1024x1024.Idx → α) (hfg : ∀ r h : Fin 1024, f (ix2 r h) = g (ix2 r h)) : f = g :=
  funext fun y => by
    obtain ⟨r, h, rfl⟩ : ∃ (r h : Fin 1024), y = ix2 r h := ⟨y 0, y 1, eq_ix2 y⟩
    exact hfg r h

/-! ## The two loads of the partial-product buffer -/

/-- The first load reads slab 0. -/
theorem ld_T0 (X : Vec Ideal S2x1024x1024 .bf16) (j h : Fin 1024) :
    (View.ld X r1_T0 : Vec Ideal S1x1024x1024 .bf16) (ix3 (0 : Fin 1) j h) = X (ix3 (0 : Fin 2) j h) := by
  show X (r1_T0.idx (ix3 (0 : Fin 1) j h)) = X (ix3 (0 : Fin 2) j h)
  congr 1
  funext b
  apply Fin.ext
  match b with
  | ⟨0, _⟩ => rfl
  | ⟨1, _⟩ => show 0 + 1 * j.val = j.val; omega
  | ⟨2, _⟩ => show 0 + 1 * h.val = h.val; omega

/-- The second load reads slab 1. -/
theorem ld_T1 (X : Vec Ideal S2x1024x1024 .bf16) (j h : Fin 1024) :
    (View.ld X r1_T1 : Vec Ideal S1x1024x1024 .bf16) (ix3 (0 : Fin 1) j h) = X (ix3 (1 : Fin 2) j h) := by
  show X (r1_T1.idx (ix3 (0 : Fin 1) j h)) = X (ix3 (1 : Fin 2) j h)
  congr 1
  funext b
  apply Fin.ext
  match b with
  | ⟨0, _⟩ => rfl
  | ⟨1, _⟩ => show 0 + 1 * j.val = j.val; omega
  | ⟨2, _⟩ => show 0 + 1 * h.val = h.val; omega

/-- The body's payload on a block `q` of queries and the whole partial-product buffer `X`, at row `r` and column `h`. -/
theorem pay_at (X : Vec Ideal S2x1024x1024 .bf16) (q : Vec Ideal S1024x1024 .bf16) (r h : Fin 1024) :
    k1_pay1 (View.ld X r1_T0) (View.ld X r1_T1) q (ix2 r h)
      = ∑ j : Fin 1024, q (ix2 r j) * (X (ix3 (0 : Fin 2) j h) + X (ix3 (1 : Fin 2) j h)) := by
  rw [Pay.k1_pay1_apply]
  refine Finset.sum_congr rfl fun j _ => ?_
  rw [ld_T0, ld_T1]

/-! ## The blocks -/

/-- The printed index maps over the grid: the query window and the output window move down one block of 1024 rows per
    point, and the partial-product window stays on its one block. -/
theorem idx_facts : ∀ t : Fin cfg1.N, win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The query window's block at point `t` is rows `1024 t … 1024 t + 1023` of the query array. -/
theorem qblk_apply (c : Dev nD) (t : Fin cfg1.N) (r d : Fin 1024) (n : Fin 8192) (hn : n.val = t.val * 1024 + r.val) :
    (iblk1 V c 0 t : Vec Ideal S1024x1024 .bf16) (ix2 r d) = (V c main_v6_0 : Vec Ideal S8192x1024 .bf16) (ix2 n d) := by
  obtain ⟨e0, e1, -⟩ := idx_facts t
  unfold iblk1
  rw [View.read_apply]
  show V c main_v6_0 (((cfg1.win 0).blk t).view.emb (ix2 r d)) = V c main_v6_0 (ix2 n d)
  congr 1
  funext a
  apply Fin.ext
  match a with
  | ⟨0, _⟩ => show win1_0.index t (0 : Fin 2) * 1024 + 1 * r.val = n.val; rw [e0, hn]; omega
  | ⟨1, _⟩ => show win1_0.index t (1 : Fin 2) * 1024 + 1 * d.val = d.val; rw [e1]; omega

/-- The partial-product window's block, at every point, is the whole buffer. -/
theorem tblk_apply (c : Dev nD) (t : Fin cfg1.N) (a : Fin 2) (j h : Fin 1024) :
    (iblk1 V c 1 t : Vec Ideal S2x1024x1024 .bf16) (ix3 a j h) = (V c main_v6_1 : Vec Ideal S2x1024x1024 .bf16) (ix3 a j h) := by
  obtain ⟨-, -, e0, e1, e2, -⟩ := idx_facts t
  unfold iblk1
  rw [View.read_apply]
  show V c main_v6_1 (((cfg1.win 1).blk t).view.emb (ix3 a j h)) = V c main_v6_1 (ix3 a j h)
  congr 1
  funext b
  apply Fin.ext
  match b with
  | ⟨0, _⟩ => show win1_1.index t (0 : Fin 3) * 2 + 1 * a.val = a.val; rw [e0]; omega
  | ⟨1, _⟩ => show win1_1.index t (1 : Fin 3) * 1024 + 1 * j.val = j.val; rw [e1]; omega
  | ⟨2, _⟩ => show win1_1.index t (2 : Fin 3) * 1024 + 1 * h.val = h.val; rw [e2]; omega

/-- Where the output window's block at point `t` sits in the output array: its row `r` is row `1024 t + r`. -/
theorem oblk_emb (t : Fin cfg1.N) (r h : Fin 1024) (n : Fin 8192) (hn : n.val = t.val * 1024 + r.val) :
    ((cfg1.win 2).blk t).view.emb (ix2 r h) = (ix2 n h : S8192x1024.Idx) := by
  obtain ⟨-, -, -, -, -, e0, e1⟩ := idx_facts t
  funext a
  apply Fin.ext
  match a with
  | ⟨0, _⟩ => show win1_2.index t (0 : Fin 2) * 1024 + 1 * r.val = n.val; rw [e0, hn]; omega
  | ⟨1, _⟩ => show win1_2.index t (1 : Fin 2) * 1024 + 1 * h.val = h.val; rw [e1]; omega

/-- What the body leaves at point `t`, at row `r` and column `h` of its block: the function at row `1024 t + r`. -/
theorem outAt1_apply (c : Dev nD) (t : Fin cfg1.N) (r h : Fin 1024) (n : Fin 8192) (hn : n.val = t.val * 1024 + r.val) :
    outAt1 (F := Ideal) V c t (ix2 r h) = outFn (V c main_v6_0) (V c main_v6_1) n h := by
  unfold outAt1
  refine (pay_at (iblk1 V c 1 t) (iblk1 V c 0 t) r h).trans ?_
  unfold outFn
  refine Finset.sum_congr rfl fun j _ => ?_
  rw [qblk_apply V c t r j n hn, tblk_apply V c t 0 j h, tblk_apply V c t 1 j h]

/-- What point `t` writes back is block `t` of the function of the two arrays. -/
theorem flushed_eq (c : Dev nD) (t : Fin cfg1.N) :
    (dat1 V c).flushed 2 t = ((cfg1.win 2).blk t).view.read (Elt Ideal) (outArr (V c main_v6_0) (V c main_v6_1)) := by
  show (cfg1.win 2).cut (grid1.coords t) ((dat1 V c).after 2 t) = _
  rw [after1_2]
  refine ext_ix2 _ _ fun r h => ?_
  have hN : cfg1.N = 8 := N_1
  have ht : t.val < 8 := by have := t.isLt; omega
  obtain ⟨n, hn⟩ : ∃ n : Fin 8192, n.val = t.val * 1024 + r.val := ⟨⟨t.val * 1024 + r.val, by have := r.isLt; omega⟩, rfl⟩
  show outAt1 (F := Ideal) V c t (ix2 r h) = outArr (V c main_v6_0) (V c main_v6_1) (((cfg1.win 2).blk t).view.emb (ix2 r h))
  rw [oblk_emb t r h n hn, outAt1_apply V c t r h n hn]

/-- An index of the output array is in point `t`'s block iff each coordinate is in the block's range on its axis. -/
theorem mem_oblk (t : Fin cfg1.N) (i : S8192x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v7).slice (win1_2.rect t)).set ↔ _
  rw [View.set_slice_whole, Rect.mem_set_unit]
  exact Iff.rfl

/-- Every index of the output array is in the block of the point its row falls in. -/
theorem cover (i : S8192x1024.Idx) : ∃ t : Fin cfg1.N, (cfg1.win 2).flush t = true ∧ i ∈ ((cfg1.win 2).blk t).view.set := by
  have hN : cfg1.N = 8 := N_1
  have hi0 : (i 0).val < 8192 := (i 0).isLt
  have hi1 : (i 1).val < 1024 := (i 1).isLt
  obtain ⟨t, ht⟩ : ∃ t : Fin cfg1.N, t.val = (i 0).val / 1024 := ⟨⟨(i 0).val / 1024, by omega⟩, rfl⟩
  obtain ⟨-, -, -, -, -, e0, e1⟩ := idx_facts t
  refine ⟨t, flush1_2 t, ?_⟩
  rw [mem_oblk]
  intro a
  match a with
  | ⟨0, _⟩ => show win1_2.index t (0 : Fin 2) * 1024 ≤ (i 0).val ∧ (i 0).val < win1_2.index t (0 : Fin 2) * 1024 + 1024; rw [e0, ht]; omega
  | ⟨1, _⟩ => show win1_2.index t (1 : Fin 2) * 1024 ≤ (i 1).val ∧ (i 1).val < win1_2.index t (1 : Fin 2) * 1024 + 1024; rw [e1]; omega

/-- The output array after the region: the function of the two arrays the region reads. -/
theorem final (c : Dev nD) : (dat1 V c).arrAt 2 cfg1.N = outArr (V c main_v6_0) (V c main_v6_1) :=
  (dat1 V c).arrAt_eq_of_cover 2 (outArr (V c main_v6_0) (V c main_v6_1)) (fun t _ => flushed_eq V c t) cover

/-- The function, spelled out. -/
theorem outFn_eq (Q : Vec Ideal S8192x1024 .bf16) (T : Vec Ideal S2x1024x1024 .bf16) (n : Fin 8192) (h : Fin 1024) :
    outFn Q T n h = ∑ j : Fin 1024, Q (ix2 n j) * (T (ix3 (0 : Fin 2) j h) + T (ix3 (1 : Fin 2) j h)) := rfl

/-- The two arrays the region reads, at their literal types. -/
abbrev Qarr (c : Dev nD) : Vec Ideal S8192x1024 .bf16 := V c main_v6_0
abbrev Tarr (c : Dev nD) : Vec Ideal S2x1024x1024 .bf16 := V c main_v6_1

/-- Index by index: row `n`, column `h` of the output is `∑_j Q[n,j] · (T[0,j,h] + T[1,j,h])`. -/
theorem arr2 (c : Dev nD) : ∀ (n : Fin 8192) (h : Fin 1024),
    (dat1 V c).arrAt 2 cfg1.N (ix2 n h) = outFn (Qarr V c) (Tarr V c) n h :=
  fun n h => (congrFun (final V c) (ix2 n h)).trans (outArr_ix2 _ _ n h)

/-- The same with the sum written out. -/
theorem arr2_sum (c : Dev nD) : ∀ (n : Fin 8192) (h : Fin 1024),
    (dat1 V c).arrAt 2 cfg1.N (ix2 n h)
      = ∑ j : Fin 1024, Qarr V c (ix2 n j) * (Tarr V c (ix3 (0 : Fin 2) j h) + Tarr V c (ix3 (1 : Fin 2) j h)) :=
  fun n h => (arr2 V c n h).trans (outFn_eq _ _ n h)

end Cert.KernelIdeal.Val1

end
-- ==== Proof.Entry.lean ====
/-
  What the first region finds in the buffers that the host operations wrote before it, at the ideal (extended-real) values.

  The input rows are untouched. Each of the three weight matrices was narrowed to bf16, which changes nothing on extended
  reals. Each of the three bias vectors of 1024 entries was reshaped to one row [1, 1024], whose entry (0, j) is the vector's
  entry j. The last lemma restates a linear layer that reads its bias from such a row as the specification's layer, which
  reads it from the vector.
-/
import proofs.«116467_j79113297592362_2_alg».proof.Proof.Gen.KernelIdeal.Regions
import proofs.«116467_j79113297592362_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## The input rows: no host operation writes them -/

theorem entry_x : (V1 m c (Proc.devRef .tc main_arg0) : S8192x1024.Idx → EReal) = (m ((c : Thread nD τ).loc main_arg0) : S8192x1024.Idx → EReal) :=
  (V1_of m c main_arg0 (by decide)).trans rfl

/-! ## The three weight matrices -/

/-- The weight matrix narrowed to bf16 before the region is the argument itself: narrowing is the identity on extended reals. -/
theorem entry_w0 : (V1 m c (Proc.devRef .tc main_v0) : S1024x1024.Idx → EReal) = (m ((c : Thread nD τ).loc main_arg1) : S1024x1024.Idx → EReal) := by
  show StableHlo.after hostOps0 (V0 m c) (Proc.devRef .tc main_v0) = _
  after_results
  rfl

/-- The weight matrix narrowed to bf16 before the region is the argument itself: narrowing is the identity on extended reals. -/
theorem entry_w1 : (V1 m c (Proc.devRef .tc main_v1) : S1024x1024.Idx → EReal) = (m ((c : Thread nD τ).loc main_arg3) : S1024x1024.Idx → EReal) := by
  show StableHlo.after hostOps0 (V0 m c) (Proc.devRef .tc main_v1) = _
  after_results
  rfl

/-- The weight matrix narrowed to bf16 before the region is the argument itself: narrowing is the identity on extended reals. -/
theorem entry_w2 : (V1 m c (Proc.devRef .tc main_v2) : S1024x1024.Idx → EReal) = (m ((c : Thread nD τ).loc main_arg5) : S1024x1024.Idx → EReal) := by
  show StableHlo.after hostOps0 (V0 m c) (Proc.devRef .tc main_v2) = _
  after_results
  rfl

/-! ## The three bias rows -/

/-- The bias vector reshaped to one row before the region: the row's entry (0, j) is the vector's entry j. -/
theorem entry_b3 (j : Fin 1024) :
    (V1 m c (Proc.devRef .tc main_v3) : S1x1024.Idx → EReal) (ix2 (0 : Fin 1) j) = (m ((c : Thread nD τ).loc main_arg2) : S1024.Idx → EReal) (ix1 j) := by
  have e : (V1 m c (Proc.devRef .tc main_v3) : S1x1024.Idx → EReal)
      = shapeCast S1x1024 (m ((c : Thread nD τ).loc main_arg2) : S1024.Idx → EReal) Facts₀.shapeCasts_S1024_S1x1024 := by
    show StableHlo.after hostOps0 (V0 m c) (Proc.devRef .tc main_v3) = _
    after_results
    rfl
  exact (congrFun e (ix2 (0 : Fin 1) j)).trans (shapeCast_a_1a_apply _ _ (0 : Fin 1) j)

/-- The bias vector reshaped to one row before the region: the row's entry (0, j) is the vector's entry j. -/
theorem entry_b4 (j : Fin 1024) :
    (V1 m c (Proc.devRef .tc main_v4) : S1x1024.Idx → EReal) (ix2 (0 : Fin 1) j) = (m ((c : Thread nD τ).loc main_arg4) : S1024.Idx → EReal) (ix1 j) := by
  have e : (V1 m c (Proc.devRef .tc main_v4) : S1x1024.Idx → EReal)
      = shapeCast S1x1024 (m ((c : Thread nD τ).loc main_arg4) : S1024.Idx → EReal) Facts₀.shapeCasts_S1024_S1x1024 := by
    show StableHlo.after hostOps0 (V0 m c) (Proc.devRef .tc main_v4) = _
    after_results
    rfl
  exact (congrFun e (ix2 (0 : Fin 1) j)).trans (shapeCast_a_1a_apply _ _ (0 : Fin 1) j)

/-- The bias vector reshaped to one row before the region: the row's entry (0, j) is the vector's entry j. -/
theorem entry_b5 (j : Fin 1024) :
    (V1 m c (Proc.devRef .tc main_v5) : S1x1024.Idx → EReal) (ix2 (0 : Fin 1) j) = (m ((c : Thread nD τ).loc main_arg6) : S1024.Idx → EReal) (ix1 j) := by
  have e : (V1 m c (Proc.devRef .tc main_v5) : S1x1024.Idx → EReal)
      = shapeCast S1x1024 (m ((c : Thread nD τ).loc main_arg6) : S1024.Idx → EReal) Facts₀.shapeCasts_S1024_S1x1024 := by
    show StableHlo.after hostOps0 (V0 m c) (Proc.devRef .tc main_v5) = _
    after_results
    rfl
  exact (congrFun e (ix2 (0 : Fin 1) j)).trans (shapeCast_a_1a_apply _ _ (0 : Fin 1) j)

/-! ## A layer whose bias is read from the row is the specification's layer -/

theorem proj_of_row (x : Cert.Attn.A2 8192 1024) (W : Cert.Attn.A2 1024 1024) (b : Cert.Attn.A1 1024) (b2 : Cert.Attn.A2 1 1024)
    (hb : ∀ j : Fin 1024, b2 (ix2 (0 : Fin 1) j) = b (ix1 j)) (n : Fin 8192) (j : Fin 1024) :
    ((∑ d : Fin 1024, x (ix2 n d) * W (ix2 j d)) + b2 (ix2 (0 : Fin 1) j)) = Cert.Attn.proj x W b n j := by
  unfold Cert.Attn.proj
  rw [hb]

end Cert.KernelIdeal.Entry

end
-- ==== Proof.AsmParts.lean ====
/-
  The kernel's result as the blockwise arrangement `outK` of the specification, from the two passes' value lemmas.

  The output pass leaves ∑_j Q[n,j] · (T[0,j,h] + T[1,j,h]) at (n, h), where Q and T are the projection pass's two outputs:
  Q[n,j] the query layer at (n, j), T[c,j,h] half c's scaled partial product, both over layers whose bias is read from a
  one-row matrix. At the region's entry the rows, weights and bias rows are the argument arrays (the bias rows entry by
  entry), so the layers are the specification's, and the sum is `outK` with the scale 1/32.
-/
import proofs.«116467_j79113297592362_2_alg».proof.Proof.Values0
import proofs.«116467_j79113297592362_2_alg».proof.Proof.Values1
import proofs.«116467_j79113297592362_2_alg».proof.Proof.Entry
import proofs.«116467_j79113297592362_2_alg».proof.Proof.Spec

noncomputable section

namespace Cert.KernelIdeal.Asm

open Cert.KernelIdeal Cert.KernelIdeal.Gen Cert.KernelIdeal.Fr Cert.Attn
open Idealize.ShloMosaic Idealize.ShloMosaic.TcCoe Idealize.ShloMosaic.ValueIdx Idealize.SL.Sem

/-- An array of rank three over the extended reals. -/
abbrev A3 (a b c : Nat) : Type := (⟨3, ![a, b, c]⟩ : Shape).Idx → EReal

/-- The sum the output pass leaves, over a query array and a two-slab array that are entry by entry the query layer and
    the two halves' scaled partial products, is the specification's blockwise arrangement. -/
theorem outK_of_parts (s : EReal) (X : A2 8192 1024) (Wq : A2 1024 1024) (bq : A1 1024) (Wk : A2 1024 1024) (bk : A1 1024)
    (Wv : A2 1024 1024) (bv : A1 1024) (Q : A2 8192 1024) (T : A3 2 1024 1024)
    (hQ : ∀ (n : Fin 8192) (j : Fin 1024), Q (ix2 n j) = proj X Wq bq n j)
    (hT : ∀ (cc : Fin 2) (j h : Fin 1024), T (ix3 cc j h) = tPart s (proj X Wk bk) (proj X Wv bv) cc.val j h)
    (n : Fin 8192) (h : Fin 1024) :
    ∑ j : Fin 1024, Q (ix2 n j) * (T (ix3 (0 : Fin 2) j h) + T (ix3 (1 : Fin 2) j h)) = outK s X Wq bq Wk bk Wv bv n h := by
  unfold outK
  refine Finset.sum_congr rfl fun j _ => ?_
  rw [hQ, hT, hT]
  rfl

/-- A layer that reads its bias from a one-row matrix, over arrays equal to the arguments (the bias row entry by entry),
    is the specification's layer of the arguments. -/
theorem projK_eq_proj (x x' : A2 8192 1024) (W W' : A2 1024 1024) (b2 : A2 1 1024) (b : A1 1024)
    (hx : x = x') (hW : W = W') (hb : ∀ j : Fin 1024, b2 (ix2 (0 : Fin 1) j) = b (ix1 j)) :
    Val0.projK x W b2 = proj x' W' b := by
  subst hx hW
  funext n j
  exact Entry.proj_of_row x W b b2 hb n j

section
variable (m : (ℓ : Loc nD τ sig) → Buf (Elt Ideal) ℓ)

/-- The seven argument arrays as launched. -/
abbrev aX (c : Dev nD) : A2 8192 1024 := m ((c.tc : Thread nD τ).loc main_arg0)
abbrev aWq (c : Dev nD) : A2 1024 1024 := m ((c.tc : Thread nD τ).loc main_arg1)
abbrev abq (c : Dev nD) : A1 1024 := m ((c.tc : Thread nD τ).loc main_arg2)
abbrev aWk (c : Dev nD) : A2 1024 1024 := m ((c.tc : Thread nD τ).loc main_arg3)
abbrev abk (c : Dev nD) : A1 1024 := m ((c.tc : Thread nD τ).loc main_arg4)
abbrev aWv (c : Dev nD) : A2 1024 1024 := m ((c.tc : Thread nD τ).loc main_arg5)
abbrev abv (c : Dev nD) : A1 1024 := m ((c.tc : Thread nD τ).loc main_arg6)

/-- At the projection pass's entry the query, key and value layers are the specification's layers of the arguments. -/
theorem q_entry (c : Dev nD) : Val0.qOf (fun c b => V1 m c b) c = proj (aX m c) (aWq m c) (abq m c) :=
  projK_eq_proj _ _ _ _ _ _ (Entry.entry_x m c) (Entry.entry_w0 m c) (Entry.entry_b3 m c)
theorem k_entry (c : Dev nD) : Val0.kOf (fun c b => V1 m c b) c = proj (aX m c) (aWk m c) (abk m c) :=
  projK_eq_proj _ _ _ _ _ _ (Entry.entry_x m c) (Entry.entry_w1 m c) (Entry.entry_b4 m c)
theorem v_entry (c : Dev nD) : Val0.vOf (fun c b => V1 m c b) c = proj (aX m c) (aWv m c) (abv m c) :=
  projK_eq_proj _ _ _ _ _ _ (Entry.entry_x m c) (Entry.entry_w2 m c) (Entry.entry_b5 m c)

end

/-- The output pass's result array, over buffer contents `V'` whose two intermediate arrays are what the projection
    pass (entered at `V`) leaves, is `outK` of any arrays whose layers the pass's layers are. -/
theorem value_of (V V' : (c : Dev nD) → (b : Ref sig .tc) → Buf (Elt Ideal) ((c : Thread nD τ).loc b)) (c : Dev nD)
    (h7 : (dat0 V c).arrAt 7 cfg0.N = V' c (Pipeline.arrRef spec0 7))
    (h8 : (dat0 V c).arrAt 8 cfg0.N = V' c (Pipeline.arrRef spec0 8))
    (X : A2 8192 1024) (Wq : A2 1024 1024) (bq : A1 1024) (Wk : A2 1024 1024) (bk : A1 1024) (Wv : A2 1024 1024) (bv : A1 1024)
    (hq : Val0.qOf V c = proj X Wq bq) (hk : Val0.kOf V c = proj X Wk bk) (hv : Val0.vOf V c = proj X Wv bv) :
    ((dat1 V' c).arrAt 2 cfg1.N : S8192x1024.Idx → EReal)
      = fun i => outK (((1 / 32 : ℝ)) : EReal) X Wq bq Wk bk Wv bv (i 0) (i 1) := by
  have e7 : (V' c main_v6_0 : S8192x1024.Idx → EReal) = Val0.outQ V c := h7.symm.trans (Val0.arr7_eq V c)
  have e8 : (V' c main_v6_1 : S2x1024x1024.Idx → EReal) = Val0.outT V c := h8.symm.trans (Val0.arr8_eq V c)
  have hQ : ∀ (n : Fin 8192) (j : Fin 1024),
      (V' c main_v6_0 : S8192x1024.Idx → EReal) (ix2 n j) = proj X Wq bq n j := by
    intro n j
    rw [e7]
    show Val0.qOf V c n j = _
    rw [hq]
  have hT : ∀ (cc : Fin 2) (j h : Fin 1024), (V' c main_v6_1 : S2x1024x1024.Idx → EReal) (ix3 cc j h)
      = tPart (((1 / 32 : ℝ)) : EReal) (proj X Wk bk) (proj X Wv bv) cc.val j h := by
    intro cc j h
    rw [e8]
    show tPart (Ideal.ofBits .f32 0x3D000000#32) (Val0.kOf V c) (Val0.vOf V c) cc.val j h = _
    rw [Pay.scale_eq, hk, hv]
  refine (Val1.final V' c).trans ?_
  funext i
  exact outK_of_parts _ X Wq bq Wk bk Wv bv _ _ hQ hT (i 0) (i 1)

end Cert.KernelIdeal.Asm

end
-- ==== Proof.LibERealFin.lean ====
/-
  Finite sums and maxima of real numbers, read inside the extended reals.

  The extended reals carry the reals as a sub-structure closed under finite sums, finite maxima, products,
  exponentials and quotients by a nonzero real; each lemma below says that one such operation, applied to
  (coerced) real numbers, yields the (coerced) real result.
-/
import Mathlib
import Idealize.ShloMosaic.PureOps.Ideal

namespace Cert.LibERealFin

open Finset Idealize.ShloMosaic

/-- A finite sum of reals, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two reals, taken in the extended reals, is the real maximum. -/
theorem max_coe (x y : ℝ) : max (x : EReal) (y : EReal) = ((max x y : ℝ) : EReal) :=
  (EReal.coe_strictMono.monotone.map_max (a := x) (b := y)).symm

/-- The bottom element is neutral for the maximum with a real. -/
theorem max_bot_coe (x : ℝ) : max (⊥ : EReal) (x : EReal) = (x : EReal) :=
  max_eq_right bot_le

/-- The bottom element is neutral for the maximum, on the right. -/
theorem max_coe_bot (x : ℝ) : max (x : EReal) (⊥ : EReal) = (x : EReal) :=
  max_eq_left bot_le

/-- The supremum of a nonempty finite family of reals, taken in the extended reals, is the real supremum. -/
theorem sup_coe {ι : Type*} (s : Finset ι) (hs : s.Nonempty) (f : ι → ℝ) :
    s.sup (fun i => ((f i : ℝ) : EReal)) = ((s.sup' hs f : ℝ) : EReal) := by
  rw [← Finset.sup'_eq_sup hs]
  exact (Finset.comp_sup'_eq_sup'_comp hs (fun x : ℝ => (x : EReal)) (fun x y => (max_coe x y).symm)).symm

/-- Folding the maximum from the bottom element over a finite family is its supremum. -/
theorem fold_max_eq_sup {ι : Type*} (s : Finset ι) (g : ι → EReal) :
    s.fold max (⊥ : EReal) g = s.sup g := by
  classical
  induction s using Finset.induction_on with
  | empty => simp
  | insert a s ha ih => rw [Finset.fold_insert ha, Finset.sup_insert, ih]

/-- Folding the maximum from the bottom element over a nonempty finite family of reals gives the real supremum. -/
theorem fold_max_coe {ι : Type*} (s : Finset ι) (hs : s.Nonempty) (f : ι → ℝ) :
    s.fold max (⊥ : EReal) (fun i => ((f i : ℝ) : EReal)) = ((s.sup' hs f : ℝ) : EReal) := by
  rw [fold_max_eq_sup, sup_coe s hs f]

/-- The quotient of a real by a nonzero real, taken in the extended reals, is the real quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-- The exponential of a real, taken in the extended reals, is the real exponential. -/
theorem exp_coe (x : ℝ) : Ideal.exp (x : EReal) = ((Real.exp x : ℝ) : EReal) := rfl

/-- The exponential of a difference of reals. -/
theorem exp_coe_sub (x y : ℝ) :
    Ideal.exp ((x : EReal) - (y : EReal)) = ((Real.exp (x - y) : ℝ) : EReal) := by
  rw [← EReal.coe_sub]; rfl

/-- The bottom element minus a real is the bottom element. -/
theorem bot_sub_coe (x : ℝ) : (⊥ : EReal) - (x : EReal) = ⊥ := by
  rw [sub_eq_add_neg, EReal.bot_add]

/-- The exponential of the bottom element minus a real is zero. -/
theorem exp_bot_sub_coe (x : ℝ) : Ideal.exp ((⊥ : EReal) - (x : EReal)) = 0 := by
  rw [bot_sub_coe]; rfl

/-- A vanishing product added on the left changes nothing. -/
theorem zero_mul_zero_add (x : EReal) : (0 : EReal) * 0 + x = x := by
  rw [zero_mul, zero_add]

/-- A zero factor on the left, added on the left, changes nothing. -/
theorem zero_mul_add (y x : EReal) : (0 : EReal) * y + x = x := by
  rw [zero_mul, zero_add]

/-- The product of two reals, taken in the extended reals, is the real product. -/
theorem mul_coe (x y : ℝ) : (x : EReal) * (y : EReal) = ((x * y : ℝ) : EReal) :=
  (EReal.coe_mul x y).symm

/-- The sum of two reals, taken in the extended reals, is the real sum. -/
theorem add_coe (x y : ℝ) : (x : EReal) + (y : EReal) = ((x + y : ℝ) : EReal) :=
  (EReal.coe_add x y).symm

/-- The difference of two reals, taken in the extended reals, is the real difference. -/
theorem sub_coe (x y : ℝ) : (x : EReal) - (y : EReal) = ((x - y : ℝ) : EReal) :=
  (EReal.coe_sub x y).symm

/-- A sum over a finite type of reals, taken in the extended reals, is the real sum. -/
theorem coe_sum_univ {ι : Type*} [Fintype ι] (f : ι → ℝ) :
    (∑ i, ((f i : ℝ) : EReal)) = ((∑ i, f i : ℝ) : EReal) :=
  coe_sum Finset.univ f

end Cert.LibERealFin
-- ==== Proof.Algebra.lean ====
/-
  The algebraic law between the two arrangements of the claim: for real inputs the blockwise, pre-scaled
  arrangement `outK` and the row-by-row arrangement `outR` are the same function.

  With q, k, v real, T_c[j,h] = (∑_{i<16} ∑_{r<256} k[row(16c+i, r), j] · v[row(16c+i, r), h]) / 32 and the rows
  m < 8192 written uniquely as m = 256·t + r with t < 32, r < 256, and t = 16c + i with c < 2, i < 16:
    ∑_j q[j] · (T₀[j,h] + T₁[j,h]) = ∑_j q[j] · (∑_m k[m,j]·v[m,h]) / 32 = ∑_m ((∑_j q[j]·k[m,j]) / 32) · v[m,h],
  by distributing the products over the sums and exchanging the two summations.
-/
import Mathlib
import proofs.«116467_j79113297592362_2_alg».proof.Proof.Spec
import proofs.«116467_j79113297592362_2_alg».proof.Proof.LibERealFin

noncomputable section

namespace Cert.Attn

open Finset Idealize.ShloMosaic Idealize.ShloMosaic.ValueIdx Cert.LibERealFin

/-! ### The rows as 32 blocks of 256 -/

/-- A row number below 8192 is, uniquely, 256·t + r with t < 32 and r < 256. -/
def rowEquiv : Fin 32 × Fin 256 ≃ Fin 8192 where
  toFun p := rowOf p.1.val p.2
  invFun m := (⟨m.val / 256, by have := m.isLt; omega⟩, ⟨m.val % 256, Nat.mod_lt _ (by decide)⟩)
  left_inv := by
    rintro ⟨⟨t, ht⟩, ⟨r, hr⟩⟩
    refine Prod.ext (Fin.ext ?_) (Fin.ext ?_)
    · show ((t % 32) * 256 + r) / 256 = t
      omega
    · show ((t % 32) * 256 + r) % 256 = r
      omega
  right_inv := by
    rintro ⟨m, hm⟩
    refine Fin.ext ?_
    show ((m / 256) % 32) * 256 + m % 256 = m
    omega

/-- A sum over all rows is the sum over the 32 blocks of the sums over each block's 256 rows. -/
theorem sum_rows_blocks (f : Fin 8192 → ℝ) :
    ∑ m, f m = ∑ t ∈ range 32, ∑ r : Fin 256, f (rowOf t r) := by
  rw [Finset.sum_range (fun t => ∑ r : Fin 256, f (rowOf t r))]
  calc ∑ m, f m = ∑ p : Fin 32 × Fin 256, f (rowEquiv p) := (Equiv.sum_comp rowEquiv f).symm
    _ = ∑ t : Fin 32, ∑ r : Fin 256, f (rowEquiv (t, r)) := Fintype.sum_prod_type _
    _ = ∑ t : Fin 32, ∑ r : Fin 256, f (rowOf t.val r) := rfl

/-- The 32 blocks are the 16 blocks of half 0 followed by the 16 blocks of half 1. -/
theorem sum_rows_halves (f : Fin 8192 → ℝ) :
    ∑ m, f m = (∑ t ∈ range 16, ∑ r : Fin 256, f (rowOf (0 * 16 + t) r))
      + ∑ t ∈ range 16, ∑ r : Fin 256, f (rowOf (1 * 16 + t) r) := by
  rw [sum_rows_blocks f]
  have h := Finset.sum_range_add (fun t => ∑ r : Fin 256, f (rowOf t r)) 16 16
  simp only [Nat.zero_mul, Nat.zero_add, Nat.one_mul]
  exact h

/-! ### The law over the reals -/

/-- The law itself, over abstract real arrays: one query row `q`, keys `k` and values `v`, one output feature `h`. -/
theorem real_law (q : Fin 1024 → ℝ) (k v : Fin 8192 → Fin 1024 → ℝ) (h : Fin 1024) :
    ∑ j, q j *
        ((∑ t ∈ range 16, ∑ r : Fin 256, k (rowOf (0 * 16 + t) r) j * v (rowOf (0 * 16 + t) r) h) * (1 / 32)
          + (∑ t ∈ range 16, ∑ r : Fin 256, k (rowOf (1 * 16 + t) r) j * v (rowOf (1 * 16 + t) r) h) * (1 / 32))
      = ∑ m, ((∑ j, q j * k m j) / 32) * v m h := by
  have hsplit : ∀ j : Fin 1024,
      (∑ t ∈ range 16, ∑ r : Fin 256, k (rowOf (0 * 16 + t) r) j * v (rowOf (0 * 16 + t) r) h) * (1 / 32)
        + (∑ t ∈ range 16, ∑ r : Fin 256, k (rowOf (1 * 16 + t) r) j * v (rowOf (1 * 16 + t) r) h) * (1 / 32)
      = (∑ m, k m j * v m h) * (1 / 32) := by
    intro j
    rw [← add_mul, ← sum_rows_halves (fun m => k m j * v m h)]
  simp only [hsplit]
  simp only [Finset.mul_sum, Finset.sum_mul, Finset.sum_div]
  rw [Finset.sum_comm]
  refine Finset.sum_congr rfl fun m _ => Finset.sum_congr rfl fun j _ => ?_
  ring

/-! ### Real arrays read inside the extended reals -/

/-- A linear layer of real arrays has real entries. -/
theorem proj_real {x : A2 8192 1024} {W : A2 1024 1024} {b : A1 1024} (hx : Fin2 x) (hW : Fin2 W) (hb : Fin1 b) :
    ∃ p : Fin 8192 → Fin 1024 → ℝ, proj x W b = fun n j => ((p n j : ℝ) : EReal) := by
  have hx' : ∀ i, ∃ r : ℝ, x i = (r : EReal) := hx
  have hW' : ∀ i, ∃ r : ℝ, W i = (r : EReal) := hW
  have hb' : ∀ i, ∃ r : ℝ, b i = (r : EReal) := hb
  choose xr hxr using hx'
  choose Wr hWr using hW'
  choose br hbr using hb'
  refine ⟨fun n j => (∑ d : Fin 1024, xr (ix2 n d) * Wr (ix2 j d)) + br (ix1 j), ?_⟩
  funext n j
  unfold proj
  simp only [hxr, hWr, hbr, ← EReal.coe_mul]
  rw [coe_sum_univ, ← EReal.coe_add]

/-- One block's contribution, for real keys and values, is the real sum over the block's rows. -/
theorem blockKV_coe (k v : Fin 8192 → Fin 1024 → ℝ) (t : ℕ) (j h : Fin 1024) :
    blockKV (fun m j => ((k m j : ℝ) : EReal)) (fun m j => ((v m j : ℝ) : EReal)) t j h
      = ((∑ r : Fin 256, k (rowOf t r) j * v (rowOf t r) h : ℝ) : EReal) := by
  unfold blockKV
  simp only [← EReal.coe_mul]
  rw [coe_sum_univ]

/-- The accumulator after steps `0 … i` is the sum of the blocks `16c … 16c + i` (over the extended reals). -/
theorem accKV_eq_sum (k v : Fin 8192 → Fin 1024 → EReal) (c i : ℕ) (j h : Fin 1024) :
    accKV k v c i j h = ∑ t ∈ range (i + 1), blockKV k v (c * 16 + t) j h := by
  induction i with
  | zero =>
    show 0 + blockKV k v (c * 16) j h = _
    rw [zero_add, Finset.sum_range_one, Nat.add_zero]
  | succ i ih =>
    show accKV k v c i j h + blockKV k v (c * 16 + (i + 1)) j h = _
    rw [ih, Finset.sum_range_succ (fun t => blockKV k v (c * 16 + t) j h) (i + 1)]

/-- A half's scaled partial product, for real keys and values and the scale 1/32. -/
theorem tPart_coe (k v : Fin 8192 → Fin 1024 → ℝ) (c : ℕ) (j h : Fin 1024) :
    tPart (((1 / 32 : ℝ)) : EReal) (fun m j => ((k m j : ℝ) : EReal)) (fun m j => ((v m j : ℝ) : EReal)) c j h
      = (((∑ t ∈ range 16, ∑ r : Fin 256, k (rowOf (c * 16 + t) r) j * v (rowOf (c * 16 + t) r) h) * (1 / 32) : ℝ) : EReal) := by
  unfold tPart
  rw [accKV_eq_sum]
  simp only [blockKV_coe]
  rw [coe_sum, ← EReal.coe_mul]

/-! ### The law over the extended reals, for real inputs -/

/-- For real inputs the blockwise, pre-scaled arrangement and the row-by-row arrangement agree at every entry. -/
theorem outK_eq_outR (x : A2 8192 1024) (Wq : A2 1024 1024) (bq : A1 1024) (Wk : A2 1024 1024) (bk : A1 1024)
    (Wv : A2 1024 1024) (bv : A1 1024)
    (hx : Fin2 x) (hWq : Fin2 Wq) (hbq : Fin1 bq) (hWk : Fin2 Wk) (hbk : Fin1 bk) (hWv : Fin2 Wv) (hbv : Fin1 bv)
    (n : Fin 8192) (h : Fin 1024) :
    outK (((1 / 32 : ℝ)) : EReal) x Wq bq Wk bk Wv bv n h = outR ((32 : ℝ) : EReal) x Wq bq Wk bk Wv bv n h := by
  obtain ⟨q, hq⟩ := proj_real hx hWq hbq
  obtain ⟨k, hk⟩ := proj_real hx hWk hbk
  obtain ⟨v, hv⟩ := proj_real hx hWv hbv
  unfold outK outR
  rw [hq, hk, hv]
  simp only [tPart_coe, ← EReal.coe_add, ← EReal.coe_mul, coe_sum_univ,
    div_coe_coe _ (show (32 : ℝ) ≠ 0 by norm_num)]
  exact congrArg (fun r : ℝ => (r : EReal)) (real_law (q n) k v h)

end Cert.Attn

end
-- ==== Proof.RefSpec.lean ====
/-
  The reference program's result, read at an index, is the row-by-row arrangement `outR` of the specification.

  The reference computes three linear layers q, k, v = x·Wᵀ + b (a transpose, a contraction over the feature axis and a
  broadcast bias each), the scores (q·kᵀ) divided entrywise by the square root of the constant 1024, and the scores times v.
  Read at (n, h): ∑_m ((∑_j q[n,j]·k[m,j]) / √1024) · v[m,h]; and √1024 = 32.
-/
import proofs.«116467_j79113297592362_2_alg».proof.Proof.Spec
import proofs.«116467_j79113297592362_2_alg».proof.Proof.Gen.ReferenceIdeal.Read

noncomputable section

namespace Cert.Attn.Ref

open Idealize.ShloMosaic Idealize.ShloMosaic.ValueIdx Cert.ReferenceIdeal Cert.ReferenceIdeal.Read Cert.Attn

/-! ### The divisor -/

/-- The reference's divisor as the program spells it: the square root of the binary32 word of 1024. -/
def refDiv : EReal := Ideal.sqrt (Ideal.ofBits .f32 0x44800000#32)

/-- The binary32 word `0x44800000` is 1024 = 2¹⁰ (exponent field 137, zero fraction). -/
theorem ofBits_1024 : Ideal.ofBits .f32 0x44800000#32 = ((1024 : ℝ) : EReal) := by
  simp [Ideal.ofBits, Ideal.ieee, -EReal.coe_mul] <;> norm_num

/-- √1024 = 32, since 32² = 1024. -/
theorem refDiv_eq : refDiv = ((32 : ℝ) : EReal) := by
  unfold refDiv
  rw [ofBits_1024, Ideal.sqrt_coe, if_neg (by norm_num)]
  have h32 : Real.sqrt 1024 = 32 := by
    rw [show (1024 : ℝ) = 32 ^ 2 by norm_num]
    exact Real.sqrt_sq (by norm_num)
  rw [h32]

/-- The square root of the constant, read at its one index, is 32. -/
theorem sqrt_const_apply (i : S_.Idx) :
    (Host.sqrt (F := Ideal) (constant (F := Ideal) S_ .f32 0x44800000#32)) i = ((32 : ℝ) : EReal) :=
  refDiv_eq

/-- The broadcast divisor, at every entry of the score matrix. -/
theorem div_apply (i : S8192x8192.Idx) : val_main_v18 (F := Ideal) i = refDiv := by
  rw [val_main_v18_apply, val_main_v15_apply, val_main_cst_apply]
  rfl

/-! ### The three linear layers -/

/-- The query layer at (n, j): `∑_d x[n,d]·Wq[j,d] + bq[j]`. -/
theorem q_apply (x0 : A2 8192 1024) (x1 : A2 1024 1024) (x2 : A1 1024) (n : Fin 8192) (j : Fin 1024) :
    val_main_v4 (F := Ideal) x0 x1 x2 (ix2 n j) = proj x0 x1 x2 n j := by
  rw [val_main_v4_apply, val_main_v1_apply, val_main_v3_apply, val_main_v2_apply, Ideal.addf_def]
  unfold proj
  congr 1
  · refine Finset.sum_congr rfl fun d _ => ?_
    rw [val_main_v0_apply]
    have e1 : lidx_main_v1 (ix2 n j) d = ix2 n d := by
      funext a; match a with | ⟨0, _⟩ => rfl | ⟨1, _⟩ => rfl
    have e2 : idx_main_v0 (ridx_main_v1 (ix2 n j) d) = ix2 j d := by
      funext a; match a with | ⟨0, _⟩ => rfl | ⟨1, _⟩ => rfl
    rw [e1, e2]
  · have e3 : idx_main_v2 (idx_main_v3 (ix2 n j)) = ix1 j := by
      funext a; match a with | ⟨0, _⟩ => rfl
    rw [e3]

/-- The key layer at (n, j). -/
theorem k_apply (x0 : A2 8192 1024) (x3 : A2 1024 1024) (x4 : A1 1024) (n : Fin 8192) (j : Fin 1024) :
    val_main_v9 (F := Ideal) x0 x3 x4 (ix2 n j) = proj x0 x3 x4 n j := by
  rw [val_main_v9_apply, val_main_v6_apply, val_main_v8_apply, val_main_v7_apply, Ideal.addf_def]
  unfold proj
  congr 1
  · refine Finset.sum_congr rfl fun d _ => ?_
    rw [val_main_v5_apply]
    have e1 : lidx_main_v6 (ix2 n j) d = ix2 n d := by
      funext a; match a with | ⟨0, _⟩ => rfl | ⟨1, _⟩ => rfl
    have e2 : idx_main_v5 (ridx_main_v6 (ix2 n j) d) = ix2 j d := by
      funext a; match a with | ⟨0, _⟩ => rfl | ⟨1, _⟩ => rfl
    rw [e1, e2]
  · have e3 : idx_main_v7 (idx_main_v8 (ix2 n j)) = ix1 j := by
      funext a; match a with | ⟨0, _⟩ => rfl
    rw [e3]

/-- The value layer at (n, j). -/
theorem v_apply (x0 : A2 8192 1024) (x5 : A2 1024 1024) (x6 : A1 1024) (n : Fin 8192) (j : Fin 1024) :
    val_main_v14 (F := Ideal) x0 x5 x6 (ix2 n j) = proj x0 x5 x6 n j := by
  rw [val_main_v14_apply, val_main_v11_apply, val_main_v13_apply, val_main_v12_apply, Ideal.addf_def]
  unfold proj
  congr 1
  · refine Finset.sum_congr rfl fun d _ => ?_
    rw [val_main_v10_apply]
    have e1 : lidx_main_v11 (ix2 n j) d = ix2 n d := by
      funext a; match a with | ⟨0, _⟩ => rfl | ⟨1, _⟩ => rfl
    have e2 : idx_main_v10 (ridx_main_v11 (ix2 n j) d) = ix2 j d := by
      funext a; match a with | ⟨0, _⟩ => rfl | ⟨1, _⟩ => rfl
    rw [e1, e2]
  · have e3 : idx_main_v12 (idx_main_v13 (ix2 n j)) = ix1 j := by
      funext a; match a with | ⟨0, _⟩ => rfl
    rw [e3]

/-! ### The scores and the result -/

/-- The scaled score of query row `n` against key row `m`: `(∑_j q[n,j]·k[m,j]) / √1024`. -/
theorem scores_apply (x0 : A2 8192 1024) (x1 : A2 1024 1024) (x2 : A1 1024) (x3 : A2 1024 1024) (x4 : A1 1024)
    (n m : Fin 8192) :
    val_main_v19 (F := Ideal) x0 x1 x2 x3 x4 (ix2 n m)
      = Ideal.div (∑ j : Fin 1024, proj x0 x1 x2 n j * proj x0 x3 x4 m j) refDiv := by
  rw [val_main_v19_apply, val_main_v17_apply, div_apply, Ideal.hostDivf_def]
  congr 1
  refine Finset.sum_congr rfl fun j _ => ?_
  rw [val_main_v16_apply]
  have e1 : lidx_main_v17 (ix2 n m) j = ix2 n j := by
    funext a; match a with | ⟨0, _⟩ => rfl | ⟨1, _⟩ => rfl
  have e2 : idx_main_v16 (ridx_main_v17 (ix2 n m) j) = ix2 m j := by
    funext a; match a with | ⟨0, _⟩ => rfl | ⟨1, _⟩ => rfl
  rw [e1, e2, q_apply, k_apply]

/-- The reference's result at (n, h) is the specification's row-by-row arrangement, the divisor as the program spells it. -/
theorem ref_apply_ix (x0 : A2 8192 1024) (x1 : A2 1024 1024) (x2 : A1 1024) (x3 : A2 1024 1024) (x4 : A1 1024) (x5 : A2 1024 1024) (x6 : A1 1024) (n : Fin 8192) (h : Fin 1024) :
    val_main_v20 (F := Ideal) x0 x1 x2 x3 x4 x5 x6 (ix2 n h) = outR refDiv x0 x1 x2 x3 x4 x5 x6 n h := by
  rw [val_main_v20_apply]
  unfold outR
  refine Finset.sum_congr rfl fun m _ => ?_
  have e1 : lidx_main_v20 (ix2 n h) m = ix2 n m := by
    funext a; match a with | ⟨0, _⟩ => rfl | ⟨1, _⟩ => rfl
  have e2 : ridx_main_v20 (ix2 n h) m = ix2 m h := by
    funext a; match a with | ⟨0, _⟩ => rfl | ⟨1, _⟩ => rfl
  rw [e1, e2, scores_apply, v_apply]

/-- The same at an arbitrary index, the divisor evaluated: the reference's result is `outR 32`. -/
theorem ref_eq (x0 : A2 8192 1024) (x1 : A2 1024 1024) (x2 : A1 1024) (x3 : A2 1024 1024) (x4 : A1 1024) (x5 : A2 1024 1024) (x6 : A1 1024) (i : S8192x1024.Idx) :
    val_main_v20 (F := Ideal) x0 x1 x2 x3 x4 x5 x6 i = outR ((32 : ℝ) : EReal) x0 x1 x2 x3 x4 x5 x6 (i 0) (i 1) := by
  obtain ⟨n, h, rfl⟩ : ∃ (n : Fin 8192) (h : Fin 1024), i = ix2 n h := ⟨i 0, i 1, eq_ix2 i⟩
  rw [← refDiv_eq]
  exact ref_apply_ix x0 x1 x2 x3 x4 x5 x6 n h

/-- As an equation of arrays. -/
theorem ref_fun_eq (x0 : A2 8192 1024) (x1 : A2 1024 1024) (x2 : A1 1024) (x3 : A2 1024 1024) (x4 : A1 1024) (x5 : A2 1024 1024) (x6 : A1 1024) :
    val_main_v20 (F := Ideal) x0 x1 x2 x3 x4 x5 x6 = fun i => outR ((32 : ℝ) : EReal) x0 x1 x2 x3 x4 x5 x6 (i 0) (i 1) :=
  funext fun i => ref_eq x0 x1 x2 x3 x4 x5 x6 i

end Cert.Attn.Ref

end
-- ==== Proof.Finite.lean ====
/-
  From the stated precondition to finiteness: the precondition is the conjunction, over the seven argument arrays, of
  "every entry's absolute value is strictly below +∞"; an extended real with that property is a real number, so every
  entry of every argument array is real.
-/
import proofs.«116467_j79113297592362_2_alg».proof.Pre_finite_inputs
import proofs.«116467_j79113297592362_2_alg».proof.Proof.Spec
import Idealize.ShloMosaic.Lib.ReduceAll

namespace Cert.Attn

open Idealize.ShloMosaic Idealize.ShloMosaic.ValueIdx

/-- An extended real whose absolute value `max x (-x)` lies strictly below +∞ is a real number:
    for x = ±∞ the absolute value is +∞ itself. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => exact absurd h (by simp [Ideal.cmp])
  | coe r => exact ⟨r, rfl⟩
  | top => exact absurd h (by simp [Ideal.cmp])

/-- The scalar shape has one index. -/
instance : Subsingleton Cert.Pre_finite_inputs.S_.Idx := ⟨fun a b => funext fun d => d.elim0⟩

open Cert.Pre_finite_inputs in
/-- One array: if the conjunction over all entries of "|a| < +∞" is true, every entry of `a` is real. -/
theorem entries_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1)
    (i : s.Idx) : ∃ r : ℝ, a i = (r : EReal) := by
  have e' := Host.reduce_andi_all
    (cmpf .olt (Host.absf a) (broadcastInDim s ![] hb (constant (F := Ideal) S_ .f32 0x7F800000#32)))
    (constantI S_ 1 1#1) hr hu ix0 e i
  exact real_of_abs_lt_inf (a i) e'

open Cert.Pre_finite_inputs in
/-- The stated precondition, true at its one index, makes every entry of the seven argument arrays a real number. -/
theorem finite_of_pre [Cert.Pre_finite_inputs.Facts]
    (a0 : FVec Ideal S8192x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32)
    (h : Cert.Pre_finite_inputs.fn (F := Ideal) a0 a1 a2 a3 a4 a5 a6 = fun _ => 1#1) :
    Fin2 (a := 8192) (b := 1024) a0 ∧ Fin2 (a := 1024) (b := 1024) a1 ∧ Fin1 (a := 1024) a2
      ∧ Fin2 (a := 1024) (b := 1024) a3 ∧ Fin1 (a := 1024) a4 ∧ Fin2 (a := 1024) (b := 1024) a5 ∧ Fin1 (a := 1024) a6 := by
  have h0 := congrFun h ix0
  dsimp only [fn, fn_part1, andi] at h0
  simp only [IntOp.andi_eq_one] at h0
  obtain ⟨⟨⟨⟨⟨⟨r0, r1⟩, r2⟩, r3⟩, r4⟩, r5⟩, r6⟩ := h0
  exact ⟨entries_real a0 _ _ _ r0, entries_real a1 _ _ _ r1, entries_real a2 _ _ _ r2, entries_real a3 _ _ _ r3,
    entries_real a4 _ _ _ r4, entries_real a5 _ _ _ r5, entries_real a6 _ _ _ r6⟩

end Cert.Attn
-- ==== Proof.Assemble.lean ====
/-
  The assembly: the kernel's result array is the specification's blockwise arrangement `outK` (scale 1/32) of the
  argument arrays, the reference's is the row-by-row arrangement `outR` (divisor 32), and for finite inputs the two
  arrangements are one function — so both programs, run from memories that agree on the arguments, end with equal results.
-/
import proofs.«116467_j79113297592362_2_alg».proof.Defs
import proofs.«116467_j79113297592362_2_alg».proof.Proof.Run
import proofs.«116467_j79113297592362_2_alg».proof.Proof.AsmParts
import proofs.«116467_j79113297592362_2_alg».proof.Proof.Algebra
import proofs.«116467_j79113297592362_2_alg».proof.Proof.RefSpec
import proofs.«116467_j79113297592362_2_alg».proof.Proof.Finite
import proofs.«116467_j79113297592362_2_alg».proof.Proof.Gen.ReferenceIdeal.Run
import proofs.«116467_j79113297592362_2_alg».proof.Proof.Gen.KernelIdeal
import proofs.«116467_j79113297592362_2_alg».proof.Proof.Gen.ReferenceIdeal
import proofs.«116467_j79113297592362_2_alg».proof.Proof.Gen.Pre_finite_inputs

noncomputable section

namespace Cert.KernelIdeal.Asm

open Cert.KernelIdeal Cert.KernelIdeal.Gen Cert.KernelIdeal.Fr Cert.Attn
open Idealize.ShloMosaic Idealize.ShloMosaic.TcCoe Idealize.ShloMosaic.ValueIdx Idealize.SL.Sem

/-- What the kernel leaves in its result array: at (n, h), `∑_j q[n,j] · (T₀[j,h] + T₁[j,h])` over the argument arrays. -/
theorem kernel_value (m : (ℓ : Loc nD τ sig) → Buf (Elt Ideal) ℓ) (c : Dev nD) :
    ((dat1 (Vb m) c).arrAt 2 cfg1.N : S8192x1024.Idx → EReal)
      = fun i => outK (((1 / 32 : ℝ)) : EReal) (aX m c) (aWq m c) (abq m c) (aWk m c) (abk m c) (aWv m c) (abv m c) (i 0) (i 1) :=
  value_of (Va m) (Vb m) c (hF0 m c 7) (hF0 m c 8) _ _ _ _ _ _ _ (q_entry m c) (k_entry m c) (v_entry m c)

/-- Both programs, run at the extended reals from memories that agree on the (finite) arguments, end with equal results
    and unchanged arguments: the common result is `outR 32` of the arguments. -/
theorem algebraic : Cert.algebraic_KernelIdeal_ReferenceIdeal := by
  intro m ρ m' ρ' hpre hagree
  refine ⟨fun c => (fun i : S8192x1024.Idx => outR ((32 : ℝ) : EReal) (aX m c) (aWq m c) (abq m c) (aWk m c) (abk m c) (aWv m c) (abv m c) (i 0) (i 1)), ?_, ?_⟩
  · refine (θ_run Cert.KernelIdeal.defs _ _).mono (fun r h c => ⟨(h c).1.trans ?_, (h c).2⟩)
      (Cert.KernelIdeal.Fr.run_main (F := Ideal) m ρ)
    obtain ⟨f0, f1, f2, f3, f4, f5, f6⟩ := Cert.Attn.finite_of_pre _ _ _ _ _ _ _ (hpre c)
    refine (kernel_value m c).trans (funext fun i => ?_)
    exact outK_eq_outR _ _ _ _ _ _ _ f0 f1 f2 f3 f4 f5 f6 (i 0) (i 1)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v20_eq, Cert.Attn.Ref.ref_fun_eq, (hagree c).1, (hagree c).2.1, (hagree c).2.2.1,
      (hagree c).2.2.2.1, (hagree c).2.2.2.2.1, (hagree c).2.2.2.2.2.1, (hagree c).2.2.2.2.2.2]

end Cert.KernelIdeal.Asm

end
-- ==== Proof.lean ====
/-
  The certificate of a softmax-free attention kernel against its jnp reference.

  With q = x·Wqᵀ + bq, k = x·Wkᵀ + bk, v = x·Wvᵀ + bv (8192 rows, 1024 features), the reference computes
  out = ((q·kᵀ) / √1024) · v, materialising the 8192 × 8192 scores. The kernel uses the associativity of the product:
  a first pass projects the rows block by block, stores q, and accumulates kᵀ·v over the sixteen row blocks of each
  half of the rows into a 1024 × 1024 accumulator, scaled by 1/32 when the half is finished; a second pass multiplies
  each block of q with the sum of the two halves' scaled products. Over the reals the two agree because √1024 = 32 and
  multiplication distributes over the finite sums; finiteness of the inputs (the precondition) is what makes the
  extended-real sums real. The frames — each program terminates, faults nowhere and leaves its arguments unchanged —
  come from running the two passes as pipelined regions (Run, KRun) and from the reference's run; the idealization
  rewrote no operation, so it is preserved trivially.
-/
import proofs.«116467_j79113297592362_2_alg».proof.Defs
import proofs.«116467_j79113297592362_2_alg».proof.Proof.Gen.Kernel
import proofs.«116467_j79113297592362_2_alg».proof.Proof.Gen.KernelIdeal
import proofs.«116467_j79113297592362_2_alg».proof.Proof.Gen.ReferenceIdeal
import proofs.«116467_j79113297592362_2_alg».proof.Proof.Gen.Pre_finite_inputs
import proofs.«116467_j79113297592362_2_alg».proof.Proof.Gen.ReferenceIdeal.Run
import proofs.«116467_j79113297592362_2_alg».proof.Proof.KRun
import proofs.«116467_j79113297592362_2_alg».proof.Proof.Run
import proofs.«116467_j79113297592362_2_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.KernelIdeal.Asm.algebraic⟩

end Cert.Proof

end
